-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S256x1 : Shape := ⟨2, ![256, 1]⟩
abbrev S256x1024 : Shape := ⟨2, ![256, 1024]⟩
abbrev S256x4096 : Shape := ⟨2, ![256, 4096]⟩
abbrev S256 : Shape := ⟨1, ![256]⟩

abbrev nBuf : Space → Nat
  | .hbm => 33
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S4096x1, .f32⟩
  | .hbm, ⟨24, _⟩ => ⟨S1x4096, .f32⟩
  | .hbm, ⟨25, _⟩ => ⟨S1x4096, .f32⟩
  | .hbm, ⟨26, _⟩ => ⟨S4096x1024, .bf16⟩
  | .hbm, ⟨27, _⟩ => ⟨S4096x1024, .bf16⟩
  | .hbm, ⟨28, _⟩ => ⟨S4096x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S4096x1024, .bf16⟩
  | .local _ .vmem, ⟨1, _⟩ => ⟨S4096x1024, .bf16⟩
  | .local _ .vmem, ⟨2, _⟩ => ⟨S256x1, .f32⟩
  | .local _ .vmem, ⟨3, _⟩ => ⟨S256x1, .f32⟩
  | .local _ .vmem, ⟨4, _⟩ => ⟨S1x4096, .f32⟩
  | .local _ .vmem, ⟨5, _⟩ => ⟨S256x1, .f32⟩
  | .local _ .vmem, ⟨6, _⟩ => ⟨S256x1, .f32⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v4 : Index := Scalar.indexCast v1
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  shapeCasts_S4096_S4096x1 : S4096.ShapeCasts S4096x1
  shapeCasts_S4096_S1x4096 : S4096.ShapeCasts S1x4096
  bitsLt_bf16_f32 : FTy.bits .bf16 < FTy.bits .f32
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  inb_S256x1024_S256x1024_0_0 : ∀ a, (![0, 0] : Fin 2 → Nat) a + S256x1024.size a ≤ S256x1024.size a
  reduces_S256x1024_S256 : S256x1024.Reduces [1] S256
  broadcasts_S256x1_S256x1024 : S256x1.Broadcasts S256x1024
  reducesTo_S4096x1_S_d0_1 : S4096x1.ReducesTo [0, 1] S_
  dot_S256x1024_S4096x1024_S256x4096_1_1_0_0_n_n_wf : DotDims.WF S256x1024 S4096x1024 S256x4096 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x1024.size a ≤ S4096x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .bf16 = 32 ∨ (Rect.block (s := S4096x1024) S4096x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S4096x1.size a
  hwx0_8 : ∀ i : grid0.Coords, EltTy.bits .f32 = 32 ∨ (Rect.block (s := S4096x1) S256x1.size (cc0_transform_8 i) (hinb0_8 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v14) S4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16) S256x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S4096x1, .f32⟩
  | 7 => ⟨S_, .f32⟩
  | 8 => ⟨S4096x1, .f32⟩
  | 9 => ⟨S4096x1, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x4096, .f32⟩
  | 23 => ⟨S4096x1024, .f32⟩
  | 24 => ⟨S_, .f32⟩
  | 25 => ⟨S4096, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S4096x4096, .f32⟩
  | 44 => ⟨S_, .f32⟩
  | 45 => ⟨S4096, .f32⟩
  | 46 => ⟨S_, .f32⟩
  | 47 => ⟨S4096, .f32⟩
  | 48 => ⟨S4096, .f32⟩
  | 49 => ⟨S4096x1, .f32⟩
  | 50 => ⟨S4096x4096, .f32⟩
  | 51 => ⟨S4096x4096, .f32⟩
  | 52 => ⟨S4096x4096, .f32⟩
  | 53 => ⟨S_, .f32⟩
  | 54 => ⟨S4096, .f32⟩
  | 55 => ⟨S4096x1, .f32⟩
  | 56 => ⟨S4096x4096, .f32⟩
  | 57 => ⟨S4096x4096, .f32⟩
  | 58 => ⟨S_, .f32⟩
  | 59 => ⟨S4096, .f32⟩
  | 60 => ⟨S_, .f32⟩
  | 61 => ⟨S4096, .f32⟩
  | 62 => ⟨S4096, .f32⟩
  | 63 => ⟨S4096x1, .f32⟩
  | 64 => ⟨S4096x4096, .f32⟩
  | 65 => ⟨S4096x4096, .f32⟩
  | 66 => ⟨S4096x4096, .f32⟩
  | 67 => ⟨S_, .f32⟩
  | 68 => ⟨S4096, .f32⟩
  | 69 => ⟨S4096x1, .f32⟩
  | 70 => ⟨S4096x1, .f32⟩
  | 71 => ⟨S4096x4096, .f32⟩
  | 72 => ⟨S4096x4096, .f32⟩
  | 73 => ⟨S_, .f32⟩
  | 74 => ⟨S4096, .f32⟩
  | 75 => ⟨S_, .f32⟩
  | 76 => ⟨S4096, .f32⟩
  | 77 => ⟨S4096, .f32⟩
  | 78 => ⟨S4096x1, .f32⟩
  | 79 => ⟨S4096x4096, .f32⟩
  | 80 => ⟨S4096x4096, .f32⟩
  | 81 => ⟨S4096x4096, .f32⟩
  | 82 => ⟨S_, .f32⟩
  | 83 => ⟨S4096, .f32⟩
  | 84 => ⟨S4096x1, .f32⟩
  | 85 => ⟨S4096x1, .f32⟩
  | 86 => ⟨S4096x4096, .f32⟩
  | 87 => ⟨S4096x4096, .f32⟩
  | 88 => ⟨S4096x4096, .f32⟩
  | 89 => ⟨S4096x4096, .f32⟩
  | 90 => ⟨S_, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S4096x1024, .f32⟩
  | 109 => ⟨S4096x1024, .f32⟩
  | 110 => ⟨S_, .f32⟩
  | 111 => ⟨S4096, .f32⟩
  | 112 => ⟨S_, .f32⟩
  | 113 => ⟨S4096, .f32⟩
  | 114 => ⟨S4096, .f32⟩
  | 115 => ⟨S4096x1, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S4096x1, .f32⟩
  | 123 => ⟨S4096x1024, .f32⟩
  | 124 => ⟨S4096x1024, .f32⟩
  | 125 => ⟨S_, .f32⟩
  | 126 => ⟨S4096, .f32⟩
  | 127 => ⟨S_, .f32⟩
  | _ => ⟨S4096x1024, .f32⟩

abbrev hbmTy0_1 (i : Nat) : BufTy := match i % 128 with
  | 0 => ⟨S4096, .f32⟩
  | 1 => ⟨S4096, .f32⟩
  | 2 => ⟨S4096x1, .f32⟩
  | 3 => ⟨S4096x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S4096x1, .f32⟩
  | 10 => ⟨S4096x1024, .f32⟩
  | 11 => ⟨S4096x1024, .f32⟩
  | 12 => ⟨S4096x1024, .f32⟩
  | 13 => ⟨S4096x1024, .f32⟩
  | 14 => ⟨S_, .f32⟩
  | 15 => ⟨S4096, .f32⟩
  | 16 => ⟨S_, .f32⟩
  | 17 => ⟨S_, .f32⟩
  | 18 => ⟨S_, .f32⟩
  | 19 => ⟨S_, .f32⟩
  | 20 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call3_v0 : Ref sig .tc := ⟨.hbm, 33, rfl⟩
abbrev main_call3_cst : Ref sig .tc := ⟨.hbm, 34, rfl⟩
abbrev main_call3_v1 : Ref sig .tc := ⟨.hbm, 35, rfl⟩
abbrev main_call3_v2 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call4_cst : Ref sig .tc := ⟨.hbm, 58, rfl⟩
abbrev main_call4_v0 : Ref sig .tc := ⟨.hbm, 59, rfl⟩
abbrev main_call4_cst_0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_v6 : Ref sig .tc := ⟨.hbm, 66, rfl⟩
abbrev main_call4_cst_1 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_v33 : Ref sig .tc := ⟨.hbm, 72, rfl⟩
abbrev main_call5_cst : Ref sig .tc := ⟨.hbm, 73, rfl⟩
abbrev main_call5_v0 : Ref sig .tc := ⟨.hbm, 74, rfl⟩
abbrev main_call5_cst_0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_cst_1 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_6 : Ref sig .tc := ⟨.hbm, 90, rfl⟩
abbrev main_v37 : Ref sig .tc := ⟨.hbm, 91, rfl⟩
abbrev main_cst_7 : Ref sig .tc := ⟨.hbm, 92, rfl⟩
abbrev main_v38 : Ref sig .tc := ⟨.hbm, 93, rfl⟩
abbrev main_cst_8 : Ref sig .tc := ⟨.hbm, 94, rfl⟩
abbrev main_v39 : Ref sig .tc := ⟨.hbm, 95, rfl⟩
abbrev main_cst_9 : Ref sig .tc := ⟨.hbm, 96, rfl⟩
abbrev main_v40 : Ref sig .tc := ⟨.hbm, 97, rfl⟩
abbrev main_cst_10 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_11 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_call6_cst : Ref sig .tc := ⟨.hbm, 110, rfl⟩
abbrev main_call6_v0 : Ref sig .tc := ⟨.hbm, 111, rfl⟩
abbrev main_call6_cst_0 : Ref sig .tc := ⟨.hbm, 112, rfl⟩
abbrev main_call6_v1 : Ref sig .tc := ⟨.hbm, 113, rfl⟩
abbrev main_call6_v2 : Ref sig .tc := ⟨.hbm, 114, rfl⟩
abbrev main_call6_v3 : Ref sig .tc := ⟨.hbm, 115, rfl⟩
abbrev main_call6_v4 : Ref sig .tc := ⟨.hbm, 116, rfl⟩
abbrev main_call6_v5 : Ref sig .tc := ⟨.hbm, 117, rfl⟩
abbrev main_call6_v6 : Ref sig .tc := ⟨.hbm, 118, rfl⟩
abbrev main_call6_cst_1 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_v51 : Ref sig .tc := ⟨.hbm, 124, rfl⟩
abbrev main_call7_cst : Ref sig .tc := ⟨.hbm, 125, rfl⟩
abbrev main_call7_v0 : Ref sig .tc := ⟨.hbm, 126, rfl⟩
abbrev main_call7_cst_0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_v5 : Ref sig .tc := ⟨.hbm, 132, rfl⟩
abbrev main_call7_v6 : Ref sig .tc := ⟨.hbm, 133, rfl⟩
abbrev main_call7_cst_1 : Ref sig .tc := ⟨.hbm, 134, rfl⟩
abbrev main_call7_v7 : Ref sig .tc := ⟨.hbm, 135, rfl⟩
abbrev main_call7_v8 : Ref sig .tc := ⟨.hbm, 136, rfl⟩
abbrev main_call7_v9 : Ref sig .tc := ⟨.hbm, 137, rfl⟩
abbrev main_call7_v10 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_cst_12 : Ref sig .tc := ⟨.hbm, 142, rfl⟩
abbrev main_v55 : Ref sig .tc := ⟨.hbm, 143, rfl⟩
abbrev main_cst_13 : Ref sig .tc := ⟨.hbm, 144, rfl⟩
abbrev main_v56 : Ref sig .tc := ⟨.hbm, 145, rfl⟩
abbrev main_cst_14 : Ref sig .tc := ⟨.hbm, 146, rfl⟩
abbrev main_v57 : Ref sig .tc := ⟨.hbm, 147, rfl⟩
abbrev main_v58 : Ref sig .tc := ⟨.hbm, 148, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  reducesTo_S4096_S_d0 : S4096.ReducesTo [0] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.LibMatmulNT.lean ====
/-
  A matrix product with the right operand transposed, read at an index on the extended reals.

  For `A : [M, K]` and `B : [N, K]`, a product that contracts the LAST axis of both operands (dimension numbers
  `contracting [1] × [1]`, `non-contracting [0] × [0]`, no batch axes: `A · Bᵀ`, what `lax.dot_general` with
  `(((1,), (1,)), ((), ()))` lowers to) into a zero accumulator is, at `(i, j)`, the finite sum
  `Σ_k A[i, k] · B[j, k]` over `k : Fin K`. Stated for ANY record with those dimension numbers, whatever the extents
  and the operands' float formats, so that it applies to a printed record by its six list fields (each `rfl`).
-/
import Idealize.ShloMosaic.Lib.ValueIdx
import Idealize.ShloMosaic.PureOps.Ideal.Laws

noncomputable section

namespace Cert.LibMatmulNT

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![N, K]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's row is the result's column. -/
theorem rhsIdx_row (d : DotDims ⟨2, ![M, K]⟩ ⟨2, ![N, K]⟩ ⟨2, ![M, N]⟩)
    (hlb : d.lhsBatch = []) (hrb : d.rhsBatch = []) (hln : d.lhsNonContracting = [0]) (hrn : d.rhsNonContracting = [0])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![N, K]⟩ ⟨2, ![M, N]⟩) (hlc : d.lhsContracting = [1]) :
    d.contr.rank = 1 := by
  rw [d.rank_contr, hlc]; rfl

theorem contr_size (d : DotDims ⟨2, ![M, K]⟩ ⟨2, ![N, K]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · Bᵀ` into a zero accumulator, at `(i, j)`, is `Σ_k A[i, k] · B[j, k]`. -/
theorem matmul_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    matmul d prec A B (constant ⟨2, ![M, N]⟩ .f32 0x00000000#32) (ix2 i j) = ∑ k : Fin K, A (ix2 i k) * B (ix2 j k) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact rhsIdx_row d hlb hrb hln hrn _ _
    | ⟨1, _⟩ => exact (d.rhsIdx_val_of_single hrc _ _).trans hk)
  rw [el, er]

end Cert.LibMatmulNT

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.RowKL.lean ====
/-
  The mathematics of the loss, on the extended reals, with no program in sight.

  A row `a` of logits is turned into weights `exp (a j - top a)`, their total `mass a`, and log-probabilities
  `logp a j = (a j - top a) - log (mass a)`. The Kullback–Leibler term of a row `a` against a row `b` is written in
  two arrangements: `klOut` divides the weighted sum of `logp a - logp b` by the mass once, `klIn` divides every weight
  by the mass first. A cosine similarity is likewise written two ways: `simOut` scales the inner product of two rows by
  the reciprocals of their lengths, `simIn` divides every entry by its row's length before the inner product.

  Over the extended reals these arrangements differ in general (a product does not distribute over a sum at the
  infinities, and a quotient by zero is an infinity). On rows of REAL numbers everything in sight is real — a maximum
  of finitely many reals, an exponential, a sum of positive reals and its logarithm, a length clamped below by a
  positive number — and the two arrangements are the same real number: `kl_rows`, `sim_rows`, and for the whole loss
  (the mean over the rows of the two KL terms against the sum of the two means) `loss_eq`.
-/
import Idealize.ShloMosaic.PureOps.Ideal

noncomputable section

open scoped BigOperators

namespace Cert.RowKL

open Idealize.ShloMosaic

/-! ## Coercions through finite sums and maxima -/

/-- A finite sum of reals, read in the extended reals, is the sum of the readings. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro i s hi ih
    rw [Finset.sum_insert hi, Finset.sum_insert hi, ih, EReal.coe_add]

variable {n : ℕ}

/-- The greatest entry of a row, folded from the least extended real. -/
def top (a : Fin n → EReal) : EReal := (Finset.univ : Finset (Fin n)).fold max ⊥ a

/-- An entry less the row's greatest. -/
def shifted (a : Fin n → EReal) (j : Fin n) : EReal := a j - top a

/-- The weight of an entry. -/
def wt (a : Fin n → EReal) (j : Fin n) : EReal := Ideal.exp (shifted a j)

/-- The total weight of a row. -/
def mass (a : Fin n → EReal) : EReal := ∑ j, wt a j

/-- The log-probability of an entry. -/
def logp (a : Fin n → EReal) (j : Fin n) : EReal := shifted a j - Ideal.log (mass a)

/-- The KL term of row `a` against row `b`, the quotient by the mass taken once, outside the sum. -/
def klOut (a b : Fin n → EReal) : EReal := Ideal.div (∑ j, wt a j * (logp a j - logp b j)) (mass a)

/-- The same term with every weight divided by the mass first. -/
def klIn (a b : Fin n → EReal) : EReal := ∑ j, Ideal.div (wt a j) (mass a) * (logp a j - logp b j)

/-- The greatest of finitely many (and at least one) reals is a real. -/
theorem top_coe (hn : 0 < n) (a : Fin n → ℝ) : ∃ μ : ℝ, top (fun j => (a j : EReal)) = (μ : EReal) := by
  have h1 : top (fun j => (a j : EReal)) < ⊤ :=
    (Finset.fold_max_lt _).2 ⟨bot_lt_top, fun j _ => EReal.coe_lt_top _⟩
  have h2 : ⊥ < top (fun j => (a j : EReal)) :=
    (Finset.lt_fold_max _).2 (Or.inr ⟨⟨0, hn⟩, Finset.mem_univ _, EReal.bot_lt_coe _⟩)
  exact ⟨_, (EReal.coe_toReal h1.ne h2.ne').symm⟩

section Row
variable {a : Fin n → ℝ} {μ : ℝ} (h : top (fun j => (a j : EReal)) = (μ : EReal))
include h

theorem wt_coe (j : Fin n) : wt (fun j => (a j : EReal)) j = ((Real.exp (a j - μ) : ℝ) : EReal) := by
  unfold wt shifted
  rw [h, ← EReal.coe_sub]
  rfl

theorem mass_coe : mass (fun j => (a j : EReal)) = ((∑ j, Real.exp (a j - μ) : ℝ) : EReal) := by
  unfold mass
  simp only [wt_coe h]
  exact coe_sum _ _

theorem mass_pos (hn : 0 < n) : 0 < ∑ j : Fin n, Real.exp (a j - μ) :=
  Finset.sum_pos (fun j _ => Real.exp_pos _) ⟨⟨0, hn⟩, Finset.mem_univ _⟩

theorem logp_coe (hn : 0 < n) (j : Fin n) :
    logp (fun j => (a j : EReal)) j = (((a j - μ) - Real.log (∑ j, Real.exp (a j - μ)) : ℝ) : EReal) := by
  unfold logp shifted
  rw [mass_coe h, h, Ideal.log_coe, if_neg (not_le.2 (mass_pos h hn)), ← EReal.coe_sub, ← EReal.coe_sub]

end Row

/-- On real rows the two arrangements of the KL term are one real number. -/
theorem kl_rows (hn : 0 < n) (a b : Fin n → ℝ) :
    ∃ r : ℝ, klOut (fun j => (a j : EReal)) (fun j => (b j : EReal)) = (r : EReal)
      ∧ klIn (fun j => (a j : EReal)) (fun j => (b j : EReal)) = (r : EReal) := by
  obtain ⟨μ, hμ⟩ := top_coe hn a
  obtain ⟨ν, hν⟩ := top_coe hn b
  have hS := mass_pos hμ hn
  refine ⟨(∑ j, Real.exp (a j - μ) * (((a j - μ) - Real.log (∑ j, Real.exp (a j - μ)))
      - ((b j - ν) - Real.log (∑ j, Real.exp (b j - ν))))) * (1 / ∑ j, Real.exp (a j - μ)), ?_, ?_⟩
  · unfold klOut
    simp only [wt_coe hμ, logp_coe hμ hn, logp_coe hν hn, ← EReal.coe_sub, ← EReal.coe_mul]
    rw [coe_sum, mass_coe hμ, Ideal.div_coe hS.ne', ← EReal.coe_mul]
  · unfold klIn
    simp only [wt_coe hμ, mass_coe hμ, logp_coe hμ hn, logp_coe hν hn, Ideal.div_coe hS.ne', ← EReal.coe_sub,
      ← EReal.coe_mul]
    rw [coe_sum, Finset.sum_mul]
    refine congrArg _ (Finset.sum_congr rfl fun j _ => ?_)
    ring

/-! ## Lengths and cosine similarities -/

variable {K : ℕ}

/-- The length of a row, clamped below by `ε`. -/
def len (ε : EReal) (x : Fin K → EReal) : EReal := max (Ideal.sqrt (0 + ∑ d, x d * x d)) ε

/-- The similarity of rows `i` and `j`: the inner product scaled by the reciprocals of the two lengths. -/
def simOut (ε one : EReal) (X : Fin n → Fin K → EReal) (i j : Fin n) : EReal :=
  ((∑ d, X i d * X j d) * Ideal.div one (len ε (X i))) * Ideal.div one (len ε (X j))

/-- The same with every entry divided by its row's length first. -/
def simIn (ε : EReal) (X : Fin n → Fin K → EReal) (i j : Fin n) : EReal :=
  ∑ d, Ideal.div (X i d) (len ε (X i)) * Ideal.div (X j d) (len ε (X j))

/-- The clamped length of a real row is a positive real. -/
theorem len_coe (x : Fin K → ℝ) {e : ℝ} (he : 0 < e) :
    ∃ p : ℝ, 0 < p ∧ len (e : EReal) (fun d => (x d : EReal)) = (p : EReal) := by
  refine ⟨max (Real.sqrt (∑ d, x d * x d)) e, lt_max_of_lt_right he, ?_⟩
  unfold len
  simp only [← EReal.coe_mul]
  rw [coe_sum, zero_add, Ideal.sqrt_coe, if_neg (not_lt.2 (Finset.sum_nonneg fun d _ => mul_self_nonneg _))]
  exact (EReal.coe_strictMono.monotone.map_max).symm

/-- On real rows the two arrangements of the similarity are one real number. -/
theorem sim_rows (X : Fin n → Fin K → ℝ) {e : ℝ} (he : 0 < e) (i j : Fin n) :
    ∃ r : ℝ, simOut (e : EReal) ((1 : ℝ) : EReal) (fun i d => (X i d : EReal)) i j = (r : EReal)
      ∧ simIn (e : EReal) (fun i d => (X i d : EReal)) i j = (r : EReal) := by
  obtain ⟨p, hp, hpe⟩ := len_coe (X i) he
  obtain ⟨q, hq, hqe⟩ := len_coe (X j) he
  refine ⟨((∑ d, X i d * X j d) * (1 * (1 / p))) * (1 * (1 / q)), ?_, ?_⟩
  · unfold simOut
    rw [hpe, hqe, Ideal.div_coe hp.ne', Ideal.div_coe hq.ne']
    simp only [← EReal.coe_mul]
    rw [coe_sum, ← EReal.coe_mul, ← EReal.coe_mul]
  · unfold simIn
    rw [hpe, hqe]
    simp only [Ideal.div_coe hp.ne', Ideal.div_coe hq.ne', ← EReal.coe_mul]
    rw [coe_sum, Finset.sum_mul, Finset.sum_mul]
    refine congrArg _ (Finset.sum_congr rfl fun d _ => ?_)
    ring

/-! ## The whole loss -/

/-- One row of the loss as the kernel arranges it: the KL term of the target's similarities against the predicted
    ones, plus the KL term of the raw rows. -/
def rowOut (ε one : EReal) (T P : Fin n → Fin K → EReal) (i : Fin n) : EReal :=
  klOut (simOut ε one T i) (simOut ε one P i) + klOut (T i) (P i)

/-- The loss as the kernel arranges it: the mean over the rows of the sum of the two KL terms. -/
def lossOut (ε one c : EReal) (T P : Fin n → Fin K → EReal) : EReal :=
  Ideal.div (0 + ∑ i, rowOut ε one T P i) c

/-- The loss as the reference arranges it: the mean of the similarity terms plus the mean of the raw terms. -/
def lossIn (ε c : EReal) (T P : Fin n → Fin K → EReal) : EReal :=
  Ideal.div (0 + ∑ i, (0 + klIn (simIn ε T i) (simIn ε P i))) c + Ideal.div (0 + ∑ i, (0 + klIn (T i) (P i))) c

/-- On real arrays, with a positive clamp and a nonzero count, the two arrangements of the loss agree. -/
theorem loss_eq (hn : 0 < n) (hK : 0 < K) (T P : Fin n → Fin K → ℝ) {e c : ℝ} (he : 0 < e) (hc : c ≠ 0) :
    lossOut (e : EReal) ((1 : ℝ) : EReal) (c : EReal) (fun i d => (T i d : EReal)) (fun i d => (P i d : EReal))
      = lossIn (e : EReal) (c : EReal) (fun i d => (T i d : EReal)) (fun i d => (P i d : EReal)) := by
  choose sT hsT₁ hsT₂ using fun i j => sim_rows T he i j
  choose sP hsP₁ hsP₂ using fun i j => sim_rows P he i j
  choose r₁ hr₁o hr₁i using fun i => kl_rows hn (sT i) (sP i)
  choose r₂ hr₂o hr₂i using fun i => kl_rows hK (T i) (P i)
  have eTo : ∀ i, simOut (e : EReal) ((1 : ℝ) : EReal) (fun i d => (T i d : EReal)) i = fun j => (sT i j : EReal) :=
    fun i => funext fun j => hsT₁ i j
  have ePo : ∀ i, simOut (e : EReal) ((1 : ℝ) : EReal) (fun i d => (P i d : EReal)) i = fun j => (sP i j : EReal) :=
    fun i => funext fun j => hsP₁ i j
  have eTi : ∀ i, simIn (e : EReal) (fun i d => (T i d : EReal)) i = fun j => (sT i j : EReal) :=
    fun i => funext fun j => hsT₂ i j
  have ePi : ∀ i, simIn (e : EReal) (fun i d => (P i d : EReal)) i = fun j => (sP i j : EReal) :=
    fun i => funext fun j => hsP₂ i j
  unfold lossOut lossIn rowOut
  simp only [eTo, ePo, eTi, ePi, hr₁o, hr₁i, hr₂o, hr₂i, zero_add, ← EReal.coe_add]
  rw [coe_sum, coe_sum, coe_sum, Ideal.div_coe hc, Ideal.div_coe hc, Ideal.div_coe hc, ← EReal.coe_mul,
    ← EReal.coe_mul, ← EReal.coe_mul, ← EReal.coe_add, Finset.sum_add_distrib, add_mul]

end Cert.RowKL

end
-- ==== Proof.Consts.lean ====
/-
  The float constants the two programs spell, as the extended reals their bit patterns denote: the least element
  (the seed of a row maximum), one, the row count 4096, and the small positive clamp of a row's length.
-/
import Idealize.ShloMosaic.PureOps.Ideal

noncomputable section

namespace Cert.Consts

open Idealize.ShloMosaic

/-- The pattern of negative infinity denotes the least extended real. -/
theorem ofBits_negInf : Ideal.ofBits .f32 0xFF800000#32 = ⊥ := by
  simp [Ideal.ofBits, Ideal.ieee]

/-- The pattern of positive infinity denotes the greatest extended real. -/
theorem ofBits_inf : Ideal.ofBits .f32 0x7F800000#32 = ⊤ := by
  simp [Ideal.ofBits, Ideal.ieee]

/-- `1.0` denotes the real one. -/
theorem ofBits_one : Ideal.ofBits .f32 0x3F800000#32 = ((1 : ℝ) : EReal) := by
  simp [Ideal.ofBits, Ideal.ieee, -EReal.coe_mul]; norm_num

/-- `4096.0` denotes the real 4096. -/
theorem ofBits_4096 : Ideal.ofBits .f32 0x45800000#32 = ((4096 : ℝ) : EReal) := by
  simp [Ideal.ofBits, Ideal.ieee, -EReal.coe_mul]; norm_num

/-- The clamp `9.99999993e-9` denotes the real `11258999 / 2 ^ 50`. -/
theorem ofBits_eps : Ideal.ofBits .f32 0x322BCC77#32 = ((11258999 / 2 ^ 50 : ℝ) : EReal) := by
  simp [Ideal.ofBits, Ideal.ieee, -EReal.coe_mul]; norm_num

/-- The clamp is positive. -/
theorem eps_pos : (0 : ℝ) < 11258999 / 2 ^ 50 := by positivity

end Cert.Consts

end
-- ==== Proof.KernelRows.lean ====
/-
  The kernel body's row-wise pieces over a block of 256 rows, read by coordinates on the extended reals.

  For a block `v : [256, n]` the body takes each row's greatest entry (a lane reduction from the least element, kept as
  a column and broadcast back), subtracts it (`kShift`), exponentiates, totals each row (`kMass`, kept as a column),
  and subtracts the logarithm of the total (`kLogp`). Against a block `q` of log-probabilities it forms, per row, the sum
  of `exp (shifted) · (logp - q)` and divides it by the row's total ONCE (`kKL`). Row `p` of `v` being
  `fun k => v (p, k)`, these are `shifted`, `mass`, `logp` of that row, and the `klOut` arrangement.
-/
import Idealize.ShloMosaic.Lib.ValueIdx
import Idealize.ShloMosaic.Lib.ValueLayout
import Idealize.ShloMosaic.PureOps.Ideal.Laws
import proofs.«122327_j31353261261534_2_alg».proof.Proof.LibRowMax
import proofs.«122327_j31353261261534_2_alg».proof.Proof.LibKeepdims
import proofs.«122327_j31353261261534_2_alg».proof.Proof.RowKL
import proofs.«122327_j31353261261534_2_alg».proof.Proof.Consts

noncomputable section

open scoped BigOperators

namespace Cert.KernelRows

open Idealize.ShloMosaic Idealize.ShloMosaic.ValueIdx Cert.RowKL

variable {n : ℕ} (hred : (⟨2, ![256, n]⟩ : Shape).Reduces [1] ⟨1, ![256]⟩)
  (hc : (⟨1, ![256]⟩ : Shape).ShapeCasts ⟨2, ![256, 1]⟩) (hb : (⟨2, ![256, 1]⟩ : Shape).Broadcasts ⟨2, ![256, n]⟩)

/-- A block's entries less their row's greatest. -/
def kShift (v : FVec Ideal ⟨2, ![256, n]⟩ .f32) : FVec Ideal ⟨2, ![256, n]⟩ .f32 :=
  subf v (broadcastTo ⟨2, ![256, n]⟩ (shapeCast ⟨2, ![256, 1]⟩
    (multiReduction .maximumf [1] ⟨1, ![256]⟩ v 0xFF800000#32 hred (.inl rfl) rfl) hc) hb)

/-- The row totals of the exponentials, kept as a column. -/
def kMass (v : FVec Ideal ⟨2, ![256, n]⟩ .f32) : FVec Ideal ⟨2, ![256, 1]⟩ .f32 :=
  shapeCast ⟨2, ![256, 1]⟩ (multiReduction .add [1] ⟨1, ![256]⟩ (exp (kShift hred hc hb v)) 0x00000000#32 hred (.inl rfl) rfl) hc

/-- The row-wise log-probabilities. -/
def kLogp (v : FVec Ideal ⟨2, ![256, n]⟩ .f32) : FVec Ideal ⟨2, ![256, n]⟩ .f32 :=
  subf (kShift hred hc hb v) (broadcastTo ⟨2, ![256, n]⟩ (log (kMass hred hc hb v)) hb)

/-- Per row, the weighted sum of `logp - q` over the row's total, as a column. -/
def kKL (v q : FVec Ideal ⟨2, ![256, n]⟩ .f32) : FVec Ideal ⟨2, ![256, 1]⟩ .f32 :=
  divf (shapeCast ⟨2, ![256, 1]⟩ (multiReduction .add [1] ⟨1, ![256]⟩
      (mulf (exp (kShift hred hc hb v)) (subf (kLogp hred hc hb v) q)) 0x00000000#32 hred (.inl rfl) rfl) hc)
    (kMass hred hc hb v)

theorem kShift_apply (v : FVec Ideal ⟨2, ![256, n]⟩ .f32) (p : Fin 256) (j : Fin n) :
    kShift hred hc hb v (ix2 p j) = shifted (fun k => v (ix2 p k)) j := by
  unfold kShift shifted top
  show v (ix2 p j) - _ = _
  refine congrArg (v (ix2 p j) - ·) ?_
  refine (broadcastTo_a1_ab_apply _ hb p j).trans ?_
  refine (shapeCast_a_a1_apply _ hc p 0).trans ?_
  refine (Cert.LibRowMax.multiReduction_max_rows_apply v _ hred _ _ p).trans ?_
  rw [Cert.Consts.ofBits_negInf]

theorem kMass_apply (v : FVec Ideal ⟨2, ![256, n]⟩ .f32) (p : Fin 256) :
    kMass hred hc hb v (ix2 p (0 : Fin 1)) = mass (fun k => v (ix2 p k)) := by
  unfold kMass mass wt
  refine (shapeCast_a_a1_apply _ hc p 0).trans ?_
  refine (multiReduction_add_rows_apply _ _ hred _ _ p).trans ?_
  refine Finset.sum_congr rfl fun k _ => ?_
  show Ideal.exp (kShift hred hc hb v (ix2 p k)) = _
  rw [kShift_apply]

theorem kLogp_apply (v : FVec Ideal ⟨2, ![256, n]⟩ .f32) (p : Fin 256) (j : Fin n) :
    kLogp hred hc hb v (ix2 p j) = logp (fun k => v (ix2 p k)) j := by
  unfold kLogp logp
  show kShift hred hc hb v (ix2 p j) - broadcastTo ⟨2, ![256, n]⟩ (log (kMass hred hc hb v)) hb (ix2 p j) = _
  refine (congrArg (kShift hred hc hb v (ix2 p j) - ·) (broadcastTo_a1_ab_apply _ hb p j)).trans ?_
  show kShift hred hc hb v (ix2 p j) - Ideal.log (kMass hred hc hb v (ix2 p (0 : Fin 1))) = _
  rw [kMass_apply, kShift_apply]

theorem kKL_apply (v q : FVec Ideal ⟨2, ![256, n]⟩ .f32) (p : Fin 256) :
    kKL hred hc hb v q (ix2 p (0 : Fin 1))
      = Ideal.div (∑ j, wt (fun k => v (ix2 p k)) j * (logp (fun k => v (ix2 p k)) j - q (ix2 p j)))
          (mass (fun k => v (ix2 p k))) := by
  unfold kKL
  show Ideal.div _ (kMass hred hc hb v (ix2 p (0 : Fin 1))) = _
  rw [kMass_apply]
  refine congrArg (Ideal.div · _) ?_
  refine (shapeCast_a_a1_apply _ hc p 0).trans ?_
  refine (multiReduction_add_rows_apply _ _ hred _ _ p).trans ?_
  refine Finset.sum_congr rfl fun j _ => ?_
  show Ideal.exp (kShift hred hc hb v (ix2 p j)) * (kLogp hred hc hb v (ix2 p j) - q (ix2 p j)) = _
  rw [kShift_apply, kLogp_apply]
  rfl

/-- Against a block of log-probabilities of a block `w`, the column is the `klOut` arrangement row by row. -/
theorem kKL_logp_apply (v w : FVec Ideal ⟨2, ![256, n]⟩ .f32) (p : Fin 256) :
    kKL hred hc hb v (kLogp hred hc hb w) (ix2 p (0 : Fin 1))
      = klOut (fun k => v (ix2 p k)) (fun k => w (ix2 p k)) := by
  rw [kKL_apply]
  unfold klOut
  refine congrArg (Ideal.div · _) (Finset.sum_congr rfl fun j _ => ?_)
  rw [kLogp_apply]

end Cert.KernelRows

end
-- ==== Proof.KernelBlock.lean ====
/-
  What the kernel body leaves in its output block, and that block's value row by row.

  At a grid point the body reads the whole target and predicted arrays (as staged), their 256 rows starting at row
  `256 · i` again, the point's 256 reciprocal lengths as a column and all 4096 as a row for each array, and the point's
  256 raw rows of each array; it stores one block `[256, 1]`. Row `p` of that block is the KL term of the target's scaled
  inner products (row `p` of the 256 against all 4096 rows, times the row's and the column's reciprocal lengths) against
  the predicted ones, plus the KL term of the raw target row against the raw predicted row, each with the quotient by
  the row's mass taken once, outside the sum (`klOut`).
-/
import proofs.«122327_j31353261261534_2_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import proofs.«122327_j31353261261534_2_alg».proof.Proof.LibMatmulNT
import proofs.«122327_j31353261261534_2_alg».proof.Proof.LibKeepdims
import proofs.«122327_j31353261261534_2_alg».proof.Proof.KernelRows
import proofs.«122327_j31353261261534_2_alg».proof.Proof.RowKL

noncomputable section

open scoped BigOperators
open Idealize.ShloMosaic Idealize.ShloMosaic.TcCoe Idealize.SL.Sem Idealize.ShloMosaic.Tactic

namespace Cert.KernelIdeal.Block

open Cert.KernelIdeal Cert.KernelIdeal.Gen Cert.KernelRows Cert.RowKL Idealize.ShloMosaic.ValueIdx

theorem hz : (![0, 0] : Fin 2 → Nat) = fun _ => 0 := funext fun a => by fin_cases a <;> rfl

section AnyInstance
variable {F : FTy → Type} [FloatOps F]

/-- The 256 rows the body reads again at grid point `i`: the rectangle at row offset `256 · i`. -/
abbrev rowsRect (i : grid0.Coords) : Rect S4096x1024 :=
  Rect.unit (s := S4096x1024) (k0_off1 i) S256x1024.size (k0_off1_inb i)

/-- What the body's one covering store leaves in the output block, as a function of the input blocks. -/
theorem out_piece (c : Dev nD) (i : grid0.Coords) (arg1 : Memref sig .tc .vmem S4096x1024 .bf16) (harg1 : arg1.IsWhole) (arg2 : Memref sig .tc .vmem S4096x1024 .bf16) (harg2 : arg2.IsWhole) (arg3 : Memref sig .tc .vmem S256x1 .f32) (harg3 : arg3.IsWhole) (arg4 : Memref sig .tc .vmem S1x4096 .f32) (harg4 : arg4.IsWhole) (arg5 : Memref sig .tc .vmem S256x1 .f32) (harg5 : arg5.IsWhole) (arg6 : Memref sig .tc .vmem S1x4096 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1 .f32) (harg9 : arg9.IsWhole)
    (x0 : Vec F S4096x1024 .bf16) (x1 : Vec F S4096x1024 .bf16) (x2 : Vec F S256x1 .f32) (x3 : Vec F S1x4096 .f32) (x4 : Vec F S256x1 .f32) (x5 : Vec F S1x4096 .f32) (x6 : Vec F S256x1024 .f32) (x7 : Vec F S256x1024 .f32) :
    out0_A_8 c i arg1 harg1 arg2 harg2 arg3 harg3 arg4 harg4 arg5 harg5 arg6 harg6 arg7 harg7 arg8 harg8 arg9 harg9 x0 x1 x2 x3 x4 x5 x6 x7
      = k0_pay3 (k0_pay1 x1 (View.ld x1 (rowsRect i)) x4 x5) (k0_pay2 x0 (View.ld x0 (rowsRect i)) x2 x3) x7 x6 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero (S := S256x1) hz]
  simp only [View.readAt_eq_ld, harg1.read_unread, harg2.read_unread, harg3.read_unread, harg4.read_unread, harg5.read_unread, harg6.read_unread, harg7.read_unread, harg8.read_unread,
    View.ld_unit_zero (S := S256x1024) hz, View.ld_unit_zero (S := S4096x1024) hz, View.ld_unit_zero (S := S256x1) hz,
    View.ld_unit_zero (S := S1x4096) hz]
  rfl

end AnyInstance

/-! ## The payloads on the extended reals -/

/-- The inner products of a block's 256 rows with all 4096 rows, each scaled by a factor of its row and a factor of its
    column. -/
def scaled (A : FVec Ideal S256x1024 .bf16) (B : FVec Ideal S4096x1024 .bf16) (r : FVec Ideal S256x1 .f32)
    (c : FVec Ideal S1x4096 .f32) : FVec Ideal S256x4096 .f32 :=
  mulf (mulf (matmul dot_S256x1024_S4096x1024_S256x4096_1_1_0_0_n_n none (shapeCast S256x1024 A shapeCasts_S256x1024_S256x1024)
        (shapeCast S4096x1024 B shapeCasts_S4096x1024_S4096x1024) (constant S256x4096 .f32 0x00000000#32))
      (broadcastTo S256x4096 (shapeCast S256x1 r shapeCasts_S256x1_S256x1) broadcasts_S256x1_S256x4096))
    (broadcastTo S256x4096 (shapeCast S1x4096 c shapeCasts_S1x4096_S1x4096) broadcasts_S1x4096_S256x4096)

theorem scaled_apply (A : FVec Ideal S256x1024 .bf16) (B : FVec Ideal S4096x1024 .bf16) (r : FVec Ideal S256x1 .f32)
    (c : FVec Ideal S1x4096 .f32) (p : Fin 256) (j : Fin 4096) :
    scaled A B r c (ix2 p j)
      = ((∑ d : Fin 1024, A (ix2 p d) * B (ix2 j d)) * r (ix2 p (0 : Fin 1))) * c (ix2 (0 : Fin 1) j) := by
  unfold scaled
  rw [mulf_apply, mulf_apply]
  refine congrArg₂ (· * ·) (congrArg₂ (· * ·) ?_ ?_) ?_
  · refine (Cert.LibMatmulNT.matmul_nt_apply dot_S256x1024_S4096x1024_S256x4096_1_1_0_0_n_n rfl rfl rfl rfl rfl rfl
      none _ _ p j).trans ?_
    simp only [shapeCast_self]
  · refine (broadcastTo_a1_ab_apply _ broadcasts_S256x1_S256x4096 p j).trans ?_
    rw [shapeCast_self]
  · refine (broadcastTo_1b_ab_apply _ broadcasts_S1x4096_S256x4096 p j).trans ?_
    rw [shapeCast_self]

/-- The body's three payloads are the row functions of the scaled inner products and of the raw blocks. -/
theorem pay2_eq (v26 : FVec Ideal S4096x1024 .bf16) (v29 : FVec Ideal S256x1024 .bf16) (v32 : FVec Ideal S256x1 .f32)
    (v36 : FVec Ideal S1x4096 .f32) : k0_pay2 (F := Ideal) v26 v29 v32 v36 = scaled v29 v26 v32 v36 := rfl

theorem pay1_eq (v2 : FVec Ideal S4096x1024 .bf16) (v5 : FVec Ideal S256x1024 .bf16) (v8 : FVec Ideal S256x1 .f32)
    (v12 : FVec Ideal S1x4096 .f32) :
    k0_pay1 (F := Ideal) v2 v5 v8 v12
      = kLogp reduces_S256x4096_S256 shapeCasts_S256_S256x1 broadcasts_S256x1_S256x4096 (scaled v5 v2 v8 v12) := rfl

set_option maxRecDepth 200000 in
theorem pay3_eq (v25 v39 : FVec Ideal S256x4096 .f32) (v55 v66 : FVec Ideal S256x1024 .f32) :
    k0_pay3 (F := Ideal) v25 v39 v55 v66
      = addf (kKL reduces_S256x4096_S256 shapeCasts_S256_S256x1 broadcasts_S256x1_S256x4096 v39 v25)
          (kKL reduces_S256x1024_S256 shapeCasts_S256_S256x1 broadcasts_S256x1_S256x1024 v66
            (kLogp reduces_S256x1024_S256 shapeCasts_S256_S256x1 broadcasts_S256x1_S256x1024 v55)) := rfl

/-- Row `p` of the stored block. -/
theorem block_value (x0 x1 : FVec Ideal S4096x1024 .bf16) (x0b x1b : FVec Ideal S256x1024 .bf16)
    (x2 x4 : FVec Ideal S256x1 .f32) (x3 x5 : FVec Ideal S1x4096 .f32) (x6 x7 : FVec Ideal S256x1024 .f32) (p : Fin 256) :
    k0_pay3 (F := Ideal) (k0_pay1 x1 x1b x4 x5) (k0_pay2 x0 x0b x2 x3) x7 x6 (ix2 p (0 : Fin 1))
      = klOut (fun j => ((∑ d : Fin 1024, x0b (ix2 p d) * x0 (ix2 j d)) * x2 (ix2 p (0 : Fin 1))) * x3 (ix2 (0 : Fin 1) j))
            (fun j => ((∑ d : Fin 1024, x1b (ix2 p d) * x1 (ix2 j d)) * x4 (ix2 p (0 : Fin 1))) * x5 (ix2 (0 : Fin 1) j))
          + klOut (fun d => x6 (ix2 p d)) (fun d => x7 (ix2 p d)) := by
  rw [pay3_eq, pay1_eq, pay2_eq, addf_apply, kKL_logp_apply, kKL_logp_apply]
  simp only [scaled_apply]

end Cert.KernelIdeal.Block

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.KernelGlue.lean ====
/-
  What the region finds in the arrays it stages: the host operations before the kernel, read by coordinates.

  Before the kernel runs, the host computes for each argument array the clamped lengths of its rows (`rlen`), their
  reciprocals (`rinv`: one over the length), lays each vector of reciprocals out as a column `[4096, 1]` and as a row
  `[1, 4096]`, and converts the two arrays to a narrower float format — the identity on the extended reals. So the
  staged copies of an argument hold the argument's entries, and the staged column and row hold, at row `r`, one over
  the clamped length of the argument's row `r`.
-/
import proofs.«122327_j31353261261534_2_alg».proof.Proof.Gen.KernelIdeal.Frame
import Idealize.ShloMosaic.Lib.StableHlo.Run
import Idealize.ShloMosaic.Lib.ValueIdx
import Idealize.ShloMosaic.Lib.ValueLayout
import proofs.«122327_j31353261261534_2_alg».proof.Proof.LibHostKeepdims
import proofs.«122327_j31353261261534_2_alg».proof.Proof.LibKeepdims
import proofs.«122327_j31353261261534_2_alg».proof.Proof.RowKL
import proofs.«122327_j31353261261534_2_alg».proof.Proof.Consts

noncomputable section

open scoped BigOperators
open Idealize.ShloMosaic Idealize.ShloMosaic.TcCoe Idealize.SL.Sem Idealize.ShloMosaic.StableHlo

namespace Cert.KernelIdeal.Glue

open Cert.KernelIdeal Cert.KernelIdeal.Gen Cert.RowKL Idealize.ShloMosaic.ValueIdx

section AnyInstance
variable {F : FTy → Type} [FloatOps F]

/-- The clamped lengths of an array's rows. -/
def rlen (x : FVec F S4096x1024 .f32) : FVec F S4096 .f32 :=
  maximumf (Host.sqrt (Host.reduceAdd (mulf x x) (constant S_ .f32 0x00000000#32) reducesTo_S4096x1024_S4096_d1 h_S_))
    (broadcastInDim S4096 ![] bcast_S_S4096 (constant S_ .f32 0x322BCC77#32))

/-- One over each clamped length. -/
def rinv (x : FVec F S4096x1024 .f32) : FVec F S4096 .f32 :=
  Host.divf (broadcastInDim S4096 ![] bcast_S_S4096 (constant S_ .f32 0x3F800000#32)) (rlen x)

end AnyInstance

theorem rlen_apply (x : FVec Ideal S4096x1024 .f32) (r : Fin 4096) :
    rlen x (ix1 r) = len (Ideal.ofBits .f32 0x322BCC77#32) (fun d => x (ix2 r d)) := by
  unfold rlen len
  show max _ _ = _
  refine congrArg₂ max ?_ ?_
  · show Ideal.sqrt _ = _
    refine congrArg Ideal.sqrt ?_
    refine (hostReduceAdd_rows_apply _ _ reducesTo_S4096x1024_S4096_d1
      ⟨reducesTo_S4096x1024_S4096_d1.1, Nat.one_pos, reducesTo_S4096x1024_S4096_d1.2⟩ h_S_ r).trans ?_
    show Ideal.ofBits .f32 0x00000000#32 + _ = _
    rw [Ideal.ofBits_zero_f32]
    rfl
  · exact broadcastInDim_scalar_apply ![] bcast_S_S4096 _ _

theorem rinv_apply (x : FVec Ideal S4096x1024 .f32) (r : Fin 4096) :
    rinv x (ix1 r) = Ideal.div (Ideal.ofBits .f32 0x3F800000#32)
      (len (Ideal.ofBits .f32 0x322BCC77#32) (fun d => x (ix2 r d))) := by
  unfold rinv
  show Ideal.div _ _ = _
  exact congrArg₂ Ideal.div (broadcastInDim_scalar_apply ![] bcast_S_S4096 _ _) (rlen_apply x r)

variable (m : (ℓ : Loc nD τ sig) → Buf (Elt Ideal) ℓ)

/-! ## The staged arrays as the region finds them -/

theorem V_v14 (c : Dev nD) :
    (V m c main_v14 : S4096x1024.Idx → EReal) = (truncf (F := Ideal) .bf16 (m ((c : Thread nD τ).loc main_arg0)) bitsLt_bf16_f32 : S4096x1024.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

theorem V_v15 (c : Dev nD) :
    (V m c main_v15 : S4096x1024.Idx → EReal) = (truncf (F := Ideal) .bf16 (m ((c : Thread nD τ).loc main_arg1)) bitsLt_bf16_f32 : S4096x1024.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

theorem V_v10 (c : Dev nD) :
    (V m c main_v10 : S4096x1.Idx → EReal) = (shapeCast S4096x1 (rinv (F := Ideal) (m ((c : Thread nD τ).loc main_arg0))) shapeCasts_S4096_S4096x1 : S4096x1.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

theorem V_v11 (c : Dev nD) :
    (V m c main_v11 : S4096x1.Idx → EReal) = (shapeCast S4096x1 (rinv (F := Ideal) (m ((c : Thread nD τ).loc main_arg1))) shapeCasts_S4096_S4096x1 : S4096x1.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

theorem V_v12 (c : Dev nD) :
    (V m c main_v12 : S1x4096.Idx → EReal) = (shapeCast S1x4096 (rinv (F := Ideal) (m ((c : Thread nD τ).loc main_arg0))) shapeCasts_S4096_S1x4096 : S1x4096.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

theorem V_v13 (c : Dev nD) :
    (V m c main_v13 : S1x4096.Idx → EReal) = (shapeCast S1x4096 (rinv (F := Ideal) (m ((c : Thread nD τ).loc main_arg1))) shapeCasts_S4096_S1x4096 : S1x4096.Idx → EReal) := by
  dsimp only [Gen.V, Gen.V0]
  simp only [Gen.hostOps0, Gen.hostOps0_1, Gen.hostOps0_2, Gen.hostOps0_3, List.flatten_cons, List.flatten_nil, List.append_nil,
    List.cons_append, List.nil_append]
  after_results
  all_goals rfl

/-! ## … read by coordinates -/

theorem V_v14_apply (c : Dev nD) (i : Fin 4096) (d : Fin 1024) :
    (V m c main_v14 : S4096x1024.Idx → EReal) (ix2 i d) = (m ((c : Thread nD τ).loc main_arg0)) (ix2 i d) := by
  rw [V_v14]; rfl

theorem V_v15_apply (c : Dev nD) (i : Fin 4096) (d : Fin 1024) :
    (V m c main_v15 : S4096x1024.Idx → EReal) (ix2 i d) = (m ((c : Thread nD τ).loc main_arg1)) (ix2 i d) := by
  rw [V_v15]; rfl

theorem V_v10_apply (c : Dev nD) (r : Fin 4096) :
    (V m c main_v10 : S4096x1.Idx → EReal) (ix2 r (0 : Fin 1))
      = Ideal.div (Ideal.ofBits .f32 0x3F800000#32)
          (len (Ideal.ofBits .f32 0x322BCC77#32) (fun d => (m ((c : Thread nD τ).loc main_arg0)) (ix2 r d))) := by
  rw [V_v10]
  exact (shapeCast_a_a1_apply _ shapeCasts_S4096_S4096x1 r 0).trans (rinv_apply _ r)

theorem V_v11_apply (c : Dev nD) (r : Fin 4096) :
    (V m c main_v11 : S4096x1.Idx → EReal) (ix2 r (0 : Fin 1))
      = Ideal.div (Ideal.ofBits .f32 0x3F800000#32)
          (len (Ideal.ofBits .f32 0x322BCC77#32) (fun d => (m ((c : Thread nD τ).loc main_arg1)) (ix2 r d))) := by
  rw [V_v11]
  exact (shapeCast_a_a1_apply _ shapeCasts_S4096_S4096x1 r 0).trans (rinv_apply _ r)

theorem V_v12_apply (c : Dev nD) (j : Fin 4096) :
    (V m c main_v12 : S1x4096.Idx → EReal) (ix2 (0 : Fin 1) j)
      = Ideal.div (Ideal.ofBits .f32 0x3F800000#32)
          (len (Ideal.ofBits .f32 0x322BCC77#32) (fun d => (m ((c : Thread nD τ).loc main_arg0)) (ix2 j d))) := by
  rw [V_v12]
  exact (shapeCast_a_1a_apply _ shapeCasts_S4096_S1x4096 0 j).trans (rinv_apply _ j)

theorem V_v13_apply (c : Dev nD) (j : Fin 4096) :
    (V m c main_v13 : S1x4096.Idx → EReal) (ix2 (0 : Fin 1) j)
      = Ideal.div (Ideal.ofBits .f32 0x3F800000#32)
          (len (Ideal.ofBits .f32 0x322BCC77#32) (fun d => (m ((c : Thread nD τ).loc main_arg1)) (ix2 j d))) := by
  rw [V_v13]
  exact (shapeCast_a_1a_apply _ shapeCasts_S4096_S1x4096 0 j).trans (rinv_apply _ j)

end Cert.KernelIdeal.Glue

end
-- ==== Proof.KernelArray.lean ====
/-
  From the kernel's blocks to its whole output array.

  The grid has 16 points; point `t` handles rows `256 · t … 256 · t + 255`. The two converted arrays and the two rows of
  reciprocal lengths are staged whole at every point; the columns of reciprocal lengths, the raw arrays and the output
  are staged 256 rows at a time. Reading each staged block back to the argument arrays, row `p` of what point `t`
  leaves is the kernel's arrangement of the loss's row `256 · t + p` (`rowOut`); the sixteen blocks tile the output
  column, so after the run the output array holds `rowOut` at every row.
-/
import proofs.«122327_j31353261261534_2_alg».proof.Proof.KernelBlock
import proofs.«122327_j31353261261534_2_alg».proof.Proof.KernelGlue

noncomputable section

open scoped BigOperators
open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block Cert.KernelIdeal.Glue Cert.RowKL
open Idealize.ShloMosaic.ValueIdx

variable (m : (ℓ : Loc nD τ sig) → Buf (Elt Ideal) ℓ)

/-- The target array's entries, by row and column. -/
abbrev Tm (c : Dev nD) (i : Fin 4096) (d : Fin 1024) : EReal :=
  (m ((c : Thread nD τ).loc main_arg0) : S4096x1024.Idx → EReal) (ix2 i d)

/-- The predicted array's entries. -/
abbrev Pm (c : Dev nD) (i : Fin 4096) (d : Fin 1024) : EReal :=
  (m ((c : Thread nD τ).loc main_arg1) : S4096x1024.Idx → EReal) (ix2 i d)

/-- What the output array ends holding: at row `r`, the kernel's arrangement of the loss's row `r`. -/
def outArr (c : Dev nD) : S4096x1.Idx → EReal := fun i =>
  rowOut (Ideal.ofBits .f32 0x322BCC77#32) (Ideal.ofBits .f32 0x3F800000#32) (Tm m c) (Pm m c) ⟨(i 0).val, (i 0).isLt⟩

/-! ## The index maps over the grid -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

/-- The row offset of the body's second read of the staged arrays at point `t`. -/
theorem off_facts : ∀ t : Fin cfg0.N, k0_off1 (grid0.coords t) (0 : Fin 2) = 256 * t.val ∧ k0_off1 (grid0.coords t) (1 : Fin 2) = 0 :=
  (by decide +kernel : ∀ t : Fin grid0.N, _)

/-- Row `p` of point `t`'s block is row `256 · t + p` of the array. -/
def row (t : Fin cfg0.N) (p : Fin 256) : Fin 4096 :=
  ⟨256 * t.val + p.val, by have h : cfg0.N = 16 := N_0; have := t.isLt; have := p.isLt; omega⟩

/-! ## The staged blocks read back to the arguments -/

theorem read0 (c : Dev nD) (t : Fin cfg0.N) (i : Fin 4096) (j : Fin 1024) :
    iblk m c 0 t (ix2 i j) = Tm m c i j := by
  obtain ⟨e0, e1⟩ := idx0 t
  show V m c main_v14 (((cfg0.win 0).blk t).view.emb (ix2 i j)) = _
  have he : ((cfg0.win 0).blk t).view.emb (ix2 i j) = ix2 i j := by
    funext a; apply Fin.ext
    match a with
    | ⟨0, _⟩ => show win0_0.index t (0 : Fin 2) * 4096 + 1 * i.val = i.val; omega
    | ⟨1, _⟩ => show win0_0.index t (1 : Fin 2) * 1024 + 1 * j.val = j.val; omega
  rw [he]
  exact V_v14_apply m c i j

theorem read1 (c : Dev nD) (t : Fin cfg0.N) (i : Fin 4096) (j : Fin 1024) :
    iblk m c 1 t (ix2 i j) = Pm m c i j := by
  obtain ⟨e0, e1⟩ := idx1 t
  show V m c main_v15 (((cfg0.win 1).blk t).view.emb (ix2 i j)) = _
  have he : ((cfg0.win 1).blk t).view.emb (ix2 i j) = ix2 i j := by
    funext a; apply Fin.ext
    match a with
    | ⟨0, _⟩ => show win0_1.index t (0 : Fin 2) * 4096 + 1 * i.val = i.val; omega
    | ⟨1, _⟩ => show win0_1.index t (1 : Fin 2) * 1024 + 1 * j.val = j.val; omega
  rw [he]
  exact V_v15_apply m c i j

theorem read2 (c : Dev nD) (t : Fin cfg0.N) (p : Fin 256) :
    iblk m c 2 t (ix2 p (0 : Fin 1)) = Ideal.div (Ideal.ofBits .f32 0x3F800000#32) (len (Ideal.ofBits .f32 0x322BCC77#32) (Tm m c (row t p))) := by
  obtain ⟨e0, e1⟩ := idx2 t
  show V m c main_v10 (((cfg0.win 2).blk t).view.emb (ix2 p (0 : Fin 1))) = _
  have he : ((cfg0.win 2).blk t).view.emb (ix2 p (0 : Fin 1)) = ix2 (row t p) (0 : Fin 1) := by
    funext a; apply Fin.ext
    match a with
    | ⟨0, _⟩ => show win0_2.index t (0 : Fin 2) * 256 + 1 * p.val = 256 * t.val + p.val; omega
    | ⟨1, _⟩ => show win0_2.index t (1 : Fin 2) * 1 + 1 * 0 = 0; omega
  rw [he]
  exact V_v10_apply m c (row t p)

theorem read3 (c : Dev nD) (t : Fin cfg0.N) (j : Fin 4096) :
    iblk m c 3 t (ix2 (0 : Fin 1) j) = Ideal.div (Ideal.ofBits .f32 0x3F800000#32) (len (Ideal.ofBits .f32 0x322BCC77#32) (Tm m c j)) := by
  obtain ⟨e0, e1⟩ := idx3 t
  show V m c main_v12 (((cfg0.win 3).blk t).view.emb (ix2 (0 : Fin 1) j)) = _
  have he : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 4096 + 1 * j.val = j.val; omega
  rw [he]
  exact V_v12_apply m c j

theorem read4 (c : Dev nD) (t : Fin cfg0.N) (p : Fin 256) :
    iblk m c 4 t (ix2 p (0 : Fin 1)) = Ideal.div (Ideal.ofBits .f32 0x3F800000#32) (len (Ideal.ofBits .f32 0x322BCC77#32) (Pm m c (row t p))) := by
  obtain ⟨e0, e1⟩ := idx4 t
  show V m c main_v11 (((cfg0.win 4).blk t).view.emb (ix2 p (0 : Fin 1))) = _
  have he : ((cfg0.win 4).blk t).view.emb (ix2 p (0 : Fin 1)) = ix2 (row t p) (0 : Fin 1) := by
    funext a; apply Fin.ext
    match a with
    | ⟨0, _⟩ => show win0_4.index t (0 : Fin 2) * 256 + 1 * p.val = 256 * t.val + p.val; omega
    | ⟨1, _⟩ => show win0_4.index t (1 : Fin 2) * 1 + 1 * 0 = 0; omega
  rw [he]
  exact V_v11_apply m c (row t p)

theorem read5 (c : Dev nD) (t : Fin cfg0.N) (j : Fin 4096) :
    iblk m c 5 t (ix2 (0 : Fin 1) j) = Ideal.div (Ideal.ofBits .f32 0x3F800000#32) (len (Ideal.ofBits .f32 0x322BCC77#32) (Pm m c j)) := by
  obtain ⟨e0, e1⟩ := idx5 t
  show V m c main_v13 (((cfg0.win 5).blk t).view.emb (ix2 (0 : Fin 1) j)) = _
  have he : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 4096 + 1 * j.val = j.val; omega
  rw [he]
  exact V_v13_apply m c j

theorem read6 (c : Dev nD) (t : Fin cfg0.N) (p : Fin 256) (j : Fin 1024) :
    iblk m c 6 t (ix2 p j) = Tm m c (row t p) j := by
  obtain ⟨e0, e1⟩ := idx6 t
  show V m c main_arg0 (((cfg0.win 6).blk t).view.emb (ix2 p j)) = _
  have he : ((cfg0.win 6).blk t).view.emb (ix2 p j) = ix2 (row t p) j := by
    funext a; apply Fin.ext
    match a with
    | ⟨0, _⟩ => show win0_6.index t (0 : Fin 2) * 256 + 1 * p.val = 256 * t.val + p.val; omega
    | ⟨1, _⟩ => show win0_6.index t (1 : Fin 2) * 1024 + 1 * j.val = j.val; omega
  rw [he]
  exact congrFun (V_main_arg0 m c) _

theorem read7 (c : Dev nD) (t : Fin cfg0.N) (p : Fin 256) (j : Fin 1024) :
    iblk m c 7 t (ix2 p j) = Pm m c (row t p) j := by
  obtain ⟨e0, e1⟩ := idx7 t
  show V m c main_arg1 (((cfg0.win 7).blk t).view.emb (ix2 p j)) = _
  have he : ((cfg0.win 7).blk t).view.emb (ix2 p j) = ix2 (row t p) j := by
    funext a; apply Fin.ext
    match a with
    | ⟨0, _⟩ => show win0_7.index t (0 : Fin 2) * 256 + 1 * p.val = 256 * t.val + p.val; omega
    | ⟨1, _⟩ => show win0_7.index t (1 : Fin 2) * 1024 + 1 * j.val = j.val; omega
  rw [he]
  exact congrFun (V_main_arg1 m c) _

/-- The body's second read of the staged target array: rows `256 · t …` of it. -/
theorem ld0 (c : Dev nD) (t : Fin cfg0.N) (p : Fin 256) (d : Fin 1024) :
    View.ld (iblk m c 0 t) (rowsRect (grid0.coords t)) (ix2 p d) = Tm m c (row t p) d := by
  obtain ⟨o0, o1⟩ := off_facts t
  show iblk m c 0 t ((rowsRect (grid0.coords t)).emb (ix2 p d)) = _
  have he : (rowsRect (grid0.coords t)).emb (ix2 p d) = ix2 (row t p) d := by
    funext a; apply Fin.ext
    match a with
    | ⟨0, _⟩ => show k0_off1 (grid0.coords t) (0 : Fin 2) + 1 * p.val = 256 * t.val + p.val; omega
    | ⟨1, _⟩ => show k0_off1 (grid0.coords t) (1 : Fin 2) + 1 * d.val = d.val; omega
  rw [he]
  exact read0 m c t _ d

theorem ld1 (c : Dev nD) (t : Fin cfg0.N) (p : Fin 256) (d : Fin 1024) :
    View.ld (iblk m c 1 t) (rowsRect (grid0.coords t)) (ix2 p d) = Pm m c (row t p) d := by
  obtain ⟨o0, o1⟩ := off_facts t
  show iblk m c 1 t ((rowsRect (grid0.coords t)).emb (ix2 p d)) = _
  have he : (rowsRect (grid0.coords t)).emb (ix2 p d) = ix2 (row t p) d := by
    funext a; apply Fin.ext
    match a with
    | ⟨0, _⟩ => show k0_off1 (grid0.coords t) (0 : Fin 2) + 1 * p.val = 256 * t.val + p.val; omega
    | ⟨1, _⟩ => show k0_off1 (grid0.coords t) (1 : Fin 2) + 1 * d.val = d.val; omega
  rw [he]
  exact read1 m c t _ d

/-! ## What a point leaves, and what it writes back -/

/-- Row `p` of what point `t` leaves in the output block is the loss's row `256 · t + p`, in the kernel's arrangement. -/
theorem point_value (c : Dev nD) (t : Fin cfg0.N) (p : Fin 256) :
    outsAt0 m c t (ix2 p (0 : Fin 1)) = rowOut (Ideal.ofBits .f32 0x322BCC77#32) (Ideal.ofBits .f32 0x3F800000#32) (Tm m c) (Pm m c) (row t p) := by
  unfold outsAt0
  rw [out_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t)]
  refine (block_value (iblk m c 0 t) (iblk m c 1 t) (View.ld (iblk m c 0 t) (rowsRect (grid0.coords t)))
    (View.ld (iblk m c 1 t) (rowsRect (grid0.coords t))) (iblk m c 2 t) (iblk m c 4 t) (iblk m c 3 t) (iblk m c 5 t)
    (iblk m c 6 t) (iblk m c 7 t) p).trans ?_
  unfold rowOut
  refine congrArg₂ (· + ·) (congrArg₂ klOut (funext fun j => ?_) (funext fun j => ?_))
    (congrArg₂ klOut (funext fun d => ?_) (funext fun d => ?_))
  · unfold simOut
    simp only [ld0, read0, read2, read3]
  · unfold simOut
    simp only [ld1, read1, read4, read5]
  · exact read6 m c t p d
  · exact read7 m c t p d

/-- The same at any index of the block, placed in the array. -/
theorem point_value' (c : Dev nD) (t : Fin cfg0.N) (y : S256x1.Idx) :
    outsAt0 m c t y = outArr m c (((cfg0.win 8).blk t).view.emb y) := by
  obtain ⟨p, u, rfl⟩ : ∃ (p : Fin 256) (u : Fin 1), y = ix2 p u := ⟨y 0, y 1, eq_ix2 y⟩
  obtain rfl : u = 0 := Subsingleton.elim _ _
  obtain ⟨e0, e1⟩ := idx8 t
  have he : ((cfg0.win 8).blk t).view.emb (ix2 p (0 : Fin 1)) = ix2 (row t p) (0 : Fin 1) := by
    funext a; apply Fin.ext
    match a with
    | ⟨0, _⟩ => show win0_8.index t (0 : Fin 2) * 256 + 1 * p.val = 256 * t.val + p.val; omega
    | ⟨1, _⟩ => show win0_8.index t (1 : Fin 2) * 1 + 1 * 0 = 0; omega
  rw [he]
  exact point_value m c t p

/-- What point `t` writes back is block `t` of `outArr`. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8]
  funext y
  exact point_value' m c t y

/-- An index of the array is in point `t`'s block iff each coordinate is in the block's range on its axis. -/
theorem mem_blk (t : Fin cfg0.N) (i : S4096x1.Idx) :
    i ∈ ((cfg0.win 8).blk t).view.set ↔ ∀ a : Fin 2, win0_8.index t a * S256x1.size a ≤ (i a).val
      ∧ (i a).val < win0_8.index t a * S256x1.size a + S256x1.size a := by
  show i ∈ ((View.whole main_v16).slice (win0_8.rect t)).set ↔ _
  rw [View.set_slice_whole, Rect.mem_set_unit]
  exact Iff.rfl

/-- Every row of the output column is in the block of the point that handles it. -/
theorem cover (i : S4096x1.Idx) :
    ∃ t : Fin cfg0.N, (cfg0.win 8).flush t = true ∧ i ∈ ((cfg0.win 8).blk t).view.set := by
  have hi0 : (i 0).val < 4096 := (i 0).isLt
  have hi1 : (i 1).val < 1 := (i 1).isLt
  have hN : cfg0.N = 16 := N_0
  have ht : (i 0).val / 256 < cfg0.N := by omega
  obtain ⟨e0, e1⟩ := idx8 ⟨(i 0).val / 256, ht⟩
  have e0' : win0_8.index ⟨(i 0).val / 256, ht⟩ (0 : Fin 2) = (i 0).val / 256 := e0
  refine ⟨⟨(i 0).val / 256, ht⟩, flush0_8 _, ?_⟩
  rw [mem_blk]
  intro a
  match a with
  | ⟨0, _⟩ =>
    show win0_8.index ⟨(i 0).val / 256, ht⟩ (0 : Fin 2) * 256 ≤ (i 0).val
      ∧ (i 0).val < win0_8.index ⟨(i 0).val / 256, ht⟩ (0 : Fin 2) * 256 + 256
    omega
  | ⟨1, _⟩ =>
    show win0_8.index ⟨(i 0).val / 256, ht⟩ (1 : Fin 2) * 1 ≤ (i 1).val
      ∧ (i 1).val < win0_8.index ⟨(i 0).val / 256, ht⟩ (1 : Fin 2) * 1 + 1
    omega

/-- The output array after the run. -/
theorem final (c : Dev nD) : (dats m 0 c).arrAt 8 cfg0.N = outArr m c :=
  (dats m 0 c).arrAt_eq_of_cover 8 (outArr m c) (fun t _ => flushed_eq m c t) (fun i => cover i)

end Cert.KernelIdeal.Arr

end
-- ==== Proof.LibHostRows.lean ====
/-
  A host program's sums over a whole vector or a whole column, and its product of a matrix with a transposed matrix,
  read by coordinates on the extended reals.

  `jnp.sum` of a vector `[a]`, or of a column `[a, 1]`, down to a scalar is the initial value plus the sum of the
  entries, `i` running over `Fin a`. For `A : [M, K]` and `B : [N, K]` a `dot_general` contracting the last axis of both
  (`A · Bᵀ`, `jnp.einsum('id,jd->ij', A, B)`) is, at `(i, j)`, the sum over `k : Fin K` of `A (i, k) · B (j, k)`.
-/
import Idealize.ShloMosaic.Lib.ValueIdx
import Idealize.ShloMosaic.PureOps.Ideal.Laws
import proofs.«122327_j31353261261534_2_alg».proof.Proof.LibMatmulNT

noncomputable section

open scoped BigOperators

namespace Cert.LibHostRows

open Idealize.ShloMosaic Idealize.ShloMosaic.ValueIdx

/-- A rank-1 index is its one coordinate. -/
def idxEquiv1 {n : ℕ} : (⟨1, ![n]⟩ : Shape).Idx ≃ Fin n where
  toFun i := i 0
  invFun a := ix1 a
  left_inv i := (eq_ix1 i).symm
  right_inv _ := rfl

/-- A sum over the indices of a vector is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the indices of a column `[a, 1]` is the sum down the column. -/
theorem sum_idx_col {M : Type*} [AddCommMonoid M] {a : ℕ} (f : (⟨2, ![a, 1]⟩ : Shape).Idx → M) :
    ∑ i, f i = ∑ p : Fin a, f (ix2 p (0 : Fin 1)) := by
  rw [sum_idx2]
  refine Finset.sum_congr rfl fun p _ => ?_
  rw [Fin.sum_univ_one]

/-- The host's sum of a vector `[a]` down to a scalar, at the ideal values: the initial value plus the sum of the
    entries. -/
theorem hostReduceAdd_vec_total {a : ℕ} {φ : FTy} {u : Shape} (x : FVec Ideal ⟨1, ![a]⟩ φ) (init : u.Idx → Ideal φ)
    (h' : (⟨1, ![a]⟩ : Shape).ReducesTo [0] ⟨0, ![]⟩) (hu : 0 < u.numel) (j : (⟨0, ![]⟩ : Shape).Idx) :
    Host.reduceAdd x init h' hu j = init (Shape.Idx.first hu) + ∑ i : Fin a, x (ix1 i) := by
  simp only [Host.reduceAdd, Ideal.hostReduceAdd_def]
  rw [Ideal.hostReduceAdd_total h' (fun b => b.elim0)]
  exact congrArg (_ + ·) (sum_idx1 x)

/-- The host's sum of a column `[a, 1]` over both axes down to a scalar: the initial value plus the sum down the
    column. -/
theorem hostReduceAdd_col_total {a : ℕ} {φ : FTy} {u : Shape} (x : FVec Ideal ⟨2, ![a, 1]⟩ φ) (init : u.Idx → Ideal φ)
    (h' : (⟨2, ![a, 1]⟩ : Shape).ReducesTo [0, 1] ⟨0, ![]⟩) (hu : 0 < u.numel) (j : (⟨0, ![]⟩ : Shape).Idx) :
    Host.reduceAdd x init h' hu j = init (Shape.Idx.first hu) + ∑ p : Fin a, x (ix2 p (0 : Fin 1)) := by
  simp only [Host.reduceAdd, Ideal.hostReduceAdd_def]
  rw [Ideal.hostReduceAdd_total h' (fun b => b.elim0)]
  exact congrArg (_ + ·) (sum_idx_col x)

variable {M N K : Nat}

/-- The host's `A · Bᵀ`, at `(i, j)`, is `Σ_k A[i, k] · B[j, k]`. -/
theorem hostDot_nt_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (A : FVec Ideal ⟨2, ![M, K]⟩ φ₁) (B : FVec Ideal ⟨2, ![N, K]⟩ φ₂)
    (i : Fin M) (j : Fin N) :
    Host.dotGeneral d prec A B (ix2 i j) = ∑ k : Fin K, A (ix2 i k) * B (ix2 j k) := by
  have hr := Cert.LibMatmulNT.contr_rank d hlc
  have hs := Cert.LibMatmulNT.contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact Cert.LibMatmulNT.lhsIdx_row d hlb hln _ _
    | ⟨1, _⟩ => exact (d.lhsIdx_val_of_single hlc _ _).trans hk)
  have er : d.rhsIdx (ix2 i j) ((contrEquiv1 d K hr hs).symm k) = ix2 j k := funext fun a => Fin.ext (by
    match a with
    | ⟨0, _⟩ => exact Cert.LibMatmulNT.rhsIdx_row d hlb hrb hln hrn _ _
    | ⟨1, _⟩ => exact (d.rhsIdx_val_of_single hrc _ _).trans hk)
  rw [el, er]

end Cert.LibHostRows

end
-- ==== Proof.KernelRun.lean ====
/-
  The kernel program's run, read back: after the region the host sums the output column and divides by the row count.

  The output array after the region holds the loss's rows in the kernel's arrangement (`outArr`); the host's sum over
  the column from zero, divided by 4096, is the mean over the rows: `lossOut` of the two argument arrays.

  `run`: every weakly fair execution of the kernel program terminates with its result buffer at that value and its
  argument arrays unchanged.
-/
import proofs.«122327_j31353261261534_2_alg».proof.Proof.KernelArray
import proofs.«122327_j31353261261534_2_alg».proof.Proof.LibHostRows

noncomputable section

open scoped BigOperators
open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Arr Cert.RowKL Cert.LibHostRows
open Idealize.ShloMosaic.ValueIdx

variable (m : (ℓ : Loc nD τ sig) → Buf (Elt Ideal) ℓ) (ρ : Dev nD → PrngReg)

/-- The output array as the lines after the region find it. -/
theorem tail_arr (c : Dev nD) :
    Pipeline.withArrays (cfgs 0).spec c (V0 m c) (fun w => (dats m 0 c).arrAt w (cfgs 0).N) (Proc.devRef .tc main_v16)
      = outArr m c :=
  (Pipeline.withArrays_arr spec0 launch0.win.arr_inj c _ _ 8).trans (final m c)

/-- The result buffer after the lines after the region: the mean over the rows. -/
theorem tail_value (c : Dev nD) :
    (Pipeline.afterTail₀ cfgs (dats m) 0 (V0 m) [hostOps1] c main_v18 : S_.Idx → EReal)
      = fun _ => lossOut (Ideal.ofBits .f32 0x322BCC77#32) (Ideal.ofBits .f32 0x3F800000#32) (Ideal.ofBits .f32 0x45800000#32) (Tm m c) (Pm m c) := by
  unfold Pipeline.afterTail₀
  show StableHlo.after hostOps1 _ (Proc.devRef .tc main_v18) = _
  after_results
  rw [tail_arr m c]
  funext j
  show Ideal.div (Host.reduceAdd (F := Ideal) (outArr m c) (constant (F := Ideal) S_ .f32 0x00000000#32) reducesTo_S4096x1_S_d0_1 h_S_ j)
    (Ideal.ofBits .f32 0x45800000#32) = _
  unfold lossOut
  refine congrArg (Ideal.div · _) ?_
  refine (hostReduceAdd_col_total _ _ reducesTo_S4096x1_S_d0_1 h_S_ j).trans ?_
  show Ideal.ofBits .f32 0x00000000#32 + _ = _
  rw [Ideal.ofBits_zero_f32]
  rfl

/-- On every device, from any memory with zero counters: every weakly fair execution of the kernel program terminates
    with its result at the mean over the rows and its argument arrays unchanged. -/
theorem run : θ_run defs (onTc (τ := τ) (main (F := Ideal))) ⟨m, fun _ => 0, ρ⟩ fun r => ∀ c : Dev nD,
      r.2.mem ((c.tc : Thread nD τ).loc main_v18) = (fun _ => lossOut (Ideal.ofBits .f32 0x322BCC77#32) (Ideal.ofBits .f32 0x3F800000#32) (Ideal.ofBits .f32 0x45800000#32) (Tm m c) (Pm m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v18 (by decide)).trans (tail_value m c),
      ((h c).1 6).trans (((dats m 0 c).arrAt_in 6 rfl _).trans ((A_eq m c 6).trans (V_main_arg0 m c))),
      ((h c).1 7).trans (((dats m 0 c).arrAt_in 7 rfl _).trans ((A_eq m c 7).trans (V_main_arg1 m c)))⟩)
    (run_main m ρ)

end Cert.KernelIdeal.Tail

end
-- ==== Proof.RefStages.lean ====
/-
  The reference program's stages, as functions of arrays.

  The reference is a straight line of host operations on two arrays `T` and `P` of shape [4096, 1024]. Its stages:
  the rows of an array divided by their lengths (a length clamped below by a small constant), `unitRows`; the matrix of
  inner products of those rows, `cosine`; for a matrix of logits its entries less their row's greatest, `shiftW` /
  `shiftN` (wide rows of 4096 entries, narrow rows of 1024), the row totals of their exponentials kept as a column,
  `massW` / `massN`, the row-wise softmax `softW` / `softN` and log-softmax `logW` / `logN`; and the mean over the rows
  of the KL terms, `meanW` / `meanN`. The result is the mean over the cosine matrices plus the mean over the raw arrays.
-/
import proofs.«122327_j31353261261534_2_alg».proof.Proof.Gen.ReferenceIdeal

noncomputable section

namespace Cert.RefRun

open Cert.ReferenceIdeal Cert.ReferenceIdeal.Gen Idealize.ShloMosaic

variable {F : FTy → Type} [FloatOps F]

/-! ## The stages -/

/-- Every row divided by its length, the length clamped below. -/
def unitRows (x : FVec F S4096x1024 .f32) : FVec F S4096x1024 .f32 :=
  Host.divf x (broadcastInDim S4096x1024 ![0, 1] bcast_S4096x1_S4096x1024_0_1 (maximumf (Host.sqrt (broadcastInDim S4096x1 ![0] bcast_S4096_S4096x1_0 (Host.reduceAdd (mulf x x) (constant S_ .f32 0x00000000#32) reducesTo_S4096x1024_S4096_d1 h_S_))) (broadcastInDim S4096x1 ![] bcast_S_S4096x1 (constant S_ .f32 0x322BCC77#32))))

/-- The inner products of the unit rows, pair by pair. -/
def cosine (x : FVec F S4096x1024 .f32) : FVec F S4096x4096 .f32 :=
  Host.dotGeneral dot_S4096x1024_S4096x1024_S4096x4096_1_1_0_0_n_n none (unitRows x) (unitRows x)

/-- A wide matrix's entries less their row's greatest. -/
def shiftW (y : FVec F S4096x4096 .f32) : FVec F S4096x4096 .f32 :=
  subf y (broadcastInDim S4096x4096 ![0, 1] bcast_S4096x1_S4096x4096_0_1 (broadcastInDim S4096x1 ![0] bcast_S4096_S4096x1_0 (maximumf (broadcastInDim S4096 ![] bcast_S_S4096 (constant S_ .f32 0xFF800000#32)) (Host.reduce FloatOps.maximumf y (constant S_ .f32 0xFF800000#32) reducesTo_S4096x4096_S4096_d1 h_S_))))

/-- The row totals of the exponentials, kept as a column. -/
def massW (y : FVec F S4096x4096 .f32) : FVec F S4096x1 .f32 :=
  broadcastInDim S4096x1 ![0] bcast_S4096_S4096x1_0 (Host.reduceAdd (Host.exp (shiftW y)) (constant S_ .f32 0x00000000#32) reducesTo_S4096x4096_S4096_d1 h_S_)

/-- The row-wise softmax. -/
def softW (y : FVec F S4096x4096 .f32) : FVec F S4096x4096 .f32 :=
  Host.divf (Host.exp (shiftW y)) (broadcastInDim S4096x4096 ![0, 1] bcast_S4096x1_S4096x4096_0_1 (massW y))

/-- The row-wise log-softmax. -/
def logW (y : FVec F S4096x4096 .f32) : FVec F S4096x4096 .f32 :=
  subf (shiftW y) (broadcastInDim S4096x4096 ![0, 1] bcast_S4096x1_S4096x4096_0_1 (Host.log (massW y)))

/-- The mean over the rows of the sums of `s · (l₁ - l₂)` along each row. -/
def meanOfW (s l₁ l₂ : FVec F S4096x4096 .f32) : FVec F S_ .f32 :=
  Host.divf (Host.reduceAdd (Host.reduceAdd (mulf s (subf l₁ l₂)) (constant S_ .f32 0x00000000#32) reducesTo_S4096x4096_S4096_d1 h_S_) (constant S_ .f32 0x00000000#32) reducesTo_S4096_S_d0 h_S_) (constant S_ .f32 0x45800000#32)

/-- The mean over the rows of the KL terms of the rows of `a` against those of `b`. -/
def meanW (a b : FVec F S4096x4096 .f32) : FVec F S_ .f32 := meanOfW (softW a) (logW a) (logW b)

/-- A narrow matrix's entries less their row's greatest. -/
def shiftN (y : FVec F S4096x1024 .f32) : FVec F S4096x1024 .f32 :=
  subf y (broadcastInDim S4096x1024 ![0, 1] bcast_S4096x1_S4096x1024_0_1 (broadcastInDim S4096x1 ![0] bcast_S4096_S4096x1_0 (maximumf (broadcastInDim S4096 ![] bcast_S_S4096 (constant S_ .f32 0xFF800000#32)) (Host.reduce FloatOps.maximumf y (constant S_ .f32 0xFF800000#32) reducesTo_S4096x1024_S4096_d1 h_S_))))

def massN (y : FVec F S4096x1024 .f32) : FVec F S4096x1 .f32 :=
  broadcastInDim S4096x1 ![0] bcast_S4096_S4096x1_0 (Host.reduceAdd (Host.exp (shiftN y)) (constant S_ .f32 0x00000000#32) reducesTo_S4096x1024_S4096_d1 h_S_)

def softN (y : FVec F S4096x1024 .f32) : FVec F S4096x1024 .f32 :=
  Host.divf (Host.exp (shiftN y)) (broadcastInDim S4096x1024 ![0, 1] bcast_S4096x1_S4096x1024_0_1 (massN y))

def logN (y : FVec F S4096x1024 .f32) : FVec F S4096x1024 .f32 :=
  subf (shiftN y) (broadcastInDim S4096x1024 ![0, 1] bcast_S4096x1_S4096x1024_0_1 (Host.log (massN y)))

/-- The mean over the rows of the sums of `s · (l₁ - l₂)` along each row. -/
def meanOfN (s l₁ l₂ : FVec F S4096x1024 .f32) : FVec F S_ .f32 :=
  Host.divf (Host.reduceAdd (Host.reduceAdd (mulf s (subf l₁ l₂)) (constant S_ .f32 0x00000000#32) reducesTo_S4096x1024_S4096_d1 h_S_) (constant S_ .f32 0x00000000#32) reducesTo_S4096_S_d0 h_S_) (constant S_ .f32 0x45800000#32)

def meanN (a b : FVec F S4096x1024 .f32) : FVec F S_ .f32 := meanOfN (softN a) (logN a) (logN b)

/-- The reference's result as a function of its two arguments. -/
def result (t p : FVec F S4096x1024 .f32) : FVec F S_ .f32 :=
  addf (meanW (cosine t) (cosine p)) (meanN t p)

end Cert.RefRun

end
-- ==== Proof.RefRun.lean ====
/-
  The reference program's run, read back over its named stages.

  The program is a list of 147 host operations. Its result buffer after the whole list is computed window by window:
  the two cosine matrices; the softmax and the two log-softmaxes of wide rows; their mean; the same three for the raw
  arrays; the second mean and the final sum. What a later window reads is either an earlier window's result or an
  argument array, which the windows in between leave alone.

  `run`: every weakly fair execution of the program terminates with its result buffer holding `result` of the two
  argument arrays as launched, and the argument arrays unchanged.
-/
import proofs.«122327_j31353261261534_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A value carried to a typed reference's buffer and back is the value. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

/-! ## The windows -/

/-- The unit rows of both arguments and the two cosine matrices. -/
abbrev winCos : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v3 main_v4 (Host.divf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_arg0) (TRef.of (T := ⟨S4096x1024, .f32⟩) main_arg0) (TRef.of (T := ⟨S4096x1024, .f32⟩) main_call1_v0) mulf,
    TRef.nullary (TRef.of (T := ⟨S_, .f32⟩) main_call1_cst) (constant S_ .f32 0x00000000#32),
    TRef.binary (TRef.of (T := ⟨S4096x1024, .f32⟩) main_call1_v0) (TRef.of (T := ⟨S_, .f32⟩) main_call1_cst) (TRef.of (T := ⟨S4096, .f32⟩) main_call1_v1) (fun x v => Host.reduceAdd x v reducesTo_S4096x1024_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x322BCC77#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v8 main_v9 (Host.divf : (⟨S4096x1024, .f32⟩ : BufTy).Contents (Elt F) → (⟨S4096x1024, .f32⟩ : BufTy).Contents (Elt F) → (⟨S4096x1024, .f32⟩ : BufTy).Contents (Elt F)),
    binary main_v9 main_v4 main_v10 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)),
    TRef.binary (TRef.of (T := ⟨S4096x1024, .f32⟩) main_arg1) (TRef.of (T := ⟨S4096x1024, .f32⟩) main_arg1) (TRef.of (T := ⟨S4096x1024, .f32⟩) main_call2_v0) mulf,
    TRef.nullary (TRef.of (T := ⟨S_, .f32⟩) main_call2_cst) (constant S_ .f32 0x00000000#32),
    TRef.binary (TRef.of (T := ⟨S4096x1024, .f32⟩) main_call2_v0) (TRef.of (T := ⟨S_, .f32⟩) main_call2_cst) (TRef.of (T := ⟨S4096, .f32⟩) main_call2_v1) (fun x v => Host.reduceAdd x v reducesTo_S4096x1024_S4096_d1 h_S_),
    TRef.unary (TRef.of (T := ⟨S4096, .f32⟩) main_call2_v1) (TRef.of (T := ⟨S4096x1, .f32⟩) main_call2_v2) (broadcastInDim S4096x1 ![0] bcast_S4096_S4096x1_0),
    TRef.unary (TRef.of (T := ⟨S4096x1, .f32⟩) main_call2_v2) (TRef.of (T := ⟨S4096x1, .f32⟩) main_v11) Host.sqrt,
    nullary main_cst_1 (constant S_ .f32 0x322BCC77#32),
    unary main_cst_1 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x1024 ![0, 1] bcast_S4096x1_S4096x1024_0_1 : (⟨S4096x1, .f32⟩ : BufTy).Contents (Elt F) → (⟨S4096x1024, .f32⟩ : BufTy).Contents (Elt F)),
    binary main_arg1 main_v14 main_v15 (Host.divf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_arg1) (TRef.of (T := ⟨S4096x1024, .f32⟩) main_arg1) (TRef.of (T := ⟨S4096x1024, .f32⟩) main_call3_v0) mulf,
    TRef.nullary (TRef.of (T := ⟨S_, .f32⟩) main_call3_cst) (constant S_ .f32 0x00000000#32),
    TRef.binary (TRef.of (T := ⟨S4096x1024, .f32⟩) main_call3_v0) (TRef.of (T := ⟨S_, .f32⟩) main_call3_cst) (TRef.of (T := ⟨S4096, .f32⟩) main_call3_v1) (fun x v => Host.reduceAdd x v reducesTo_S4096x1024_S4096_d1 h_S_),
    TRef.unary (TRef.of (T := ⟨S4096, .f32⟩) main_call3_v1) (TRef.of (T := ⟨S4096x1, .f32⟩) main_call3_v2) (broadcastInDim S4096x1 ![0] bcast_S4096_S4096x1_0),
    TRef.unary (TRef.of (T := ⟨S4096x1, .f32⟩) main_call3_v2) (TRef.of (T := ⟨S4096x1, .f32⟩) main_v16) Host.sqrt,
    nullary main_cst_2 (constant S_ .f32 0x322BCC77#32),
    unary main_cst_2 main_v17 (broadcastInDim S4096x1 ![] bcast_S_S4096x1 : (⟨S_, .f32⟩ : BufTy).Contents (Elt F) → (⟨S4096x1, .f32⟩ : BufTy).Contents (Elt F)),
    binary main_v16 main_v17 main_v18 (maximumf : (⟨S4096x1, .f32⟩ : BufTy).Contents (Elt F) → (⟨S4096x1, .f32⟩ : BufTy).Contents (Elt F) → (⟨S4096x1, .f32⟩ : BufTy).Contents (Elt F)),
    unary main_v18 main_v19 (broadcastInDim S4096x1024 ![0, 1] bcast_S4096x1_S4096x1024_0_1 : (⟨S4096x1, .f32⟩ : BufTy).Contents (Elt F) → (⟨S4096x1024, .f32⟩ : BufTy).Contents (Elt F)),
    binary main_arg1 main_v19 main_v20 (Host.divf : (⟨S4096x1024, .f32⟩ : BufTy).Contents (Elt F) → (⟨S4096x1024, .f32⟩ : BufTy).Contents (Elt F) → (⟨S4096x1024, .f32⟩ : BufTy).Contents (Elt F)),
    binary main_v20 main_v15 main_v21 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)) ]

/-- The softmax of the first cosine matrix and the log-softmaxes of both. -/
abbrev winWide : List (HloOp τ sig (Elt F)) :=
  [ nullary main_cst_3 (constant S_ .f32 0xFF800000#32),
    binary main_v10 main_cst_3 main_v22 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0xFF800000#32),
    unary main_cst_4 main_v23 (broadcastInDim S4096 ![] bcast_S_S4096 : (⟨S_, .f32⟩ : BufTy).Contents (Elt F) → (⟨S4096, .f32⟩ : BufTy).Contents (Elt F)),
    binary main_v23 main_v22 main_v24 (maximumf : (⟨S4096, .f32⟩ : BufTy).Contents (Elt F) → (⟨S4096, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    unary main_v25 main_v26 (broadcastInDim S4096x4096 ![0, 1] bcast_S4096x1_S4096x4096_0_1 : (⟨S4096x1, .f32⟩ : BufTy).Contents (Elt F) → (⟨S4096x4096, .f32⟩ : BufTy).Contents (Elt F)),
    binary main_v10 main_v26 main_v27 (subf : (⟨S4096x4096, .f32⟩ : BufTy).Contents (Elt F) → (⟨S4096x4096, .f32⟩ : BufTy).Contents (Elt F) → (⟨S4096x4096, .f32⟩ : BufTy).Contents (Elt F)),
    unary main_v27 main_v28 (Host.exp : (⟨S4096x4096, .f32⟩ : BufTy).Contents (Elt F) → (⟨S4096x4096, .f32⟩ : BufTy).Contents (Elt F)),
    nullary main_cst_5 (constant S_ .f32 0x00000000#32),
    binary main_v28 main_cst_5 main_v29 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v29 main_v30 (broadcastInDim S4096x1 ![0] bcast_S4096_S4096x1_0 : (⟨S4096, .f32⟩ : BufTy).Contents (Elt F) → (⟨S4096x1, .f32⟩ : BufTy).Contents (Elt F)),
    unary main_v30 main_v31 (broadcastInDim S4096x4096 ![0, 1] bcast_S4096x1_S4096x4096_0_1 : (⟨S4096x1, .f32⟩ : BufTy).Contents (Elt F) → (⟨S4096x4096, .f32⟩ : BufTy).Contents (Elt F)),
    binary main_v28 main_v31 main_v32 (Host.divf : (⟨S4096x4096, .f32⟩ : BufTy).Contents (Elt F) → (⟨S4096x4096, .f32⟩ : BufTy).Contents (Elt F) → (⟨S4096x4096, .f32⟩ : BufTy).Contents (Elt F)),
    TRef.nullary (TRef.of (T := ⟨S_, .f32⟩) main_call4_cst) (constant S_ .f32 0xFF800000#32),
    TRef.binary (TRef.of (T := ⟨S4096x4096, .f32⟩) main_v10) (TRef.of (T := ⟨S_, .f32⟩) main_call4_cst) (TRef.of (T := ⟨S4096, .f32⟩) main_call4_v0) (fun x v => Host.reduce FloatOps.maximumf x v reducesTo_S4096x4096_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x4096, .f32⟩) main_call4_v4) (broadcastInDim S4096x4096 ![0, 1] bcast_S4096x1_S4096x4096_0_1),
    TRef.binary (TRef.of (T := ⟨S4096x4096, .f32⟩) main_v10) (TRef.of (T := ⟨S4096x4096, .f32⟩) main_call4_v4) (TRef.of (T := ⟨S4096x4096, .f32⟩) main_call4_v5) subf,
    TRef.unary (TRef.of (T := ⟨S4096x4096, .f32⟩) main_call4_v5) (TRef.of (T := ⟨S4096x4096, .f32⟩) main_call4_v6) Host.exp,
    TRef.nullary (TRef.of (T := ⟨S_, .f32⟩) main_call4_cst_1) (constant S_ .f32 0x00000000#32),
    TRef.binary (TRef.of (T := ⟨S4096x4096, .f32⟩) main_call4_v6) (TRef.of (T := ⟨S_, .f32⟩) main_call4_cst_1) (TRef.of (T := ⟨S4096, .f32⟩) main_call4_v7) (fun x v => Host.reduceAdd x v reducesTo_S4096x4096_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x4096, .f32⟩) main_call4_v10) (broadcastInDim S4096x4096 ![0, 1] bcast_S4096x1_S4096x4096_0_1),
    TRef.binary (TRef.of (T := ⟨S4096x4096, .f32⟩) main_call4_v5) (TRef.of (T := ⟨S4096x4096, .f32⟩) main_call4_v10) (TRef.of (T := ⟨S4096x4096, .f32⟩) main_v33) subf,
    TRef.nullary (TRef.of (T := ⟨S_, .f32⟩) main_call5_cst) (constant S_ .f32 0xFF800000#32),
    TRef.binary (TRef.of (T := ⟨S4096x4096, .f32⟩) main_v21) (TRef.of (T := ⟨S_, .f32⟩) main_call5_cst) (TRef.of (T := ⟨S4096, .f32⟩) main_call5_v0) (fun x v => Host.reduce FloatOps.maximumf x v reducesTo_S4096x4096_S4096_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S4096, .f32⟩) main_call5_v1) (broadcastInDim S4096 ![] bcast_S_S4096),
    TRef.binary (TRef.of (T := ⟨S4096, .f32⟩) main_call5_v1) (TRef.of (T := ⟨S4096, .f32⟩) main_call5_v0) (TRef.of (T := ⟨S4096, .f32⟩) main_call5_v2) maximumf,
    TRef.unary (TRef.of (T := ⟨S4096, .f32⟩) main_call5_v2) (TRef.of (T := ⟨S4096x1, .f32⟩) main_call5_v3) (broadcastInDim S4096x1 ![0] bcast_S4096_S4096x1_0),
    TRef.unary (TRef.of (T := ⟨S4096x1, .f32⟩) main_call5_v3) (TRef.of (T := ⟨S4096x4096, .f32⟩) main_call5_v4) (broadcastInDim S4096x4096 ![0, 1] bcast_S4096x1_S4096x4096_0_1),
    TRef.binary (TRef.of (T := ⟨S4096x4096, .f32⟩) main_v21) (TRef.of (T := ⟨S4096x4096, .f32⟩) main_call5_v4) (TRef.of (T := ⟨S4096x4096, .f32⟩) main_call5_v5) subf,
    TRef.unary (TRef.of (T := ⟨S4096x4096, .f32⟩) main_call5_v5) (TRef.of (T := ⟨S4096x4096, .f32⟩) main_call5_v6) Host.exp,
    TRef.nullary (TRef.of (T := ⟨S_, .f32⟩) main_call5_cst_1) (constant S_ .f32 0x00000000#32),
    TRef.binary (TRef.of (T := ⟨S4096x4096, .f32⟩) main_call5_v6) (TRef.of (T := ⟨S_, .f32⟩) main_call5_cst_1) (TRef.of (T := ⟨S4096, .f32⟩) main_call5_v7) (fun x v => Host.reduceAdd x v reducesTo_S4096x4096_S4096_d1 h_S_),
    TRef.unary (TRef.of (T := ⟨S4096, .f32⟩) main_call5_v7) (TRef.of (T := ⟨S4096x1, .f32⟩) main_call5_v8) (broadcastInDim S4096x1 ![0] bcast_S4096_S4096x1_0),
    TRef.unary (TRef.of (T := ⟨S4096x1, .f32⟩) main_call5_v8) (TRef.of (T := ⟨S4096x1, .f32⟩) main_call5_v9) Host.log,
    TRef.unary (TRef.of (T := ⟨S4096x1, .f32⟩) main_call5_v9) (TRef.of (T := ⟨S4096x4096, .f32⟩) main_call5_v10) (broadcastInDim S4096x4096 ![0, 1] bcast_S4096x1_S4096x4096_0_1),
    TRef.binary (TRef.of (T := ⟨S4096x4096, .f32⟩) main_call5_v5) (TRef.of (T := ⟨S4096x4096, .f32⟩) main_call5_v10) (TRef.of (T := ⟨S4096x4096, .f32⟩) main_v34) subf ]

/-- The mean over the rows of the wide KL terms. -/
abbrev winMeanW : List (HloOp τ sig (Elt F)) :=
  [ binary main_v33 main_v34 main_v35 (subf : (⟨S4096x4096, .f32⟩ : BufTy).Contents (Elt F) → (⟨S4096x4096, .f32⟩ : BufTy).Contents (Elt F) → (⟨S4096x4096, .f32⟩ : BufTy).Contents (Elt F)),
    binary main_v32 main_v35 main_v36 (mulf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x00000000#32),
    binary main_v36 main_cst_6 main_v37 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_7 (constant S_ .f32 0x00000000#32),
    binary main_v37 main_cst_7 main_v38 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_8 (constant S_ .f32 0x45800000#32),
    binary main_v38 main_cst_8 main_v39 (Host.divf : (⟨S_, .f32⟩ : BufTy).Contents (Elt F) → (⟨S_, .f32⟩ : BufTy).Contents (Elt F) → (⟨S_, .f32⟩ : BufTy).Contents (Elt F)) ]

/-- The softmax of the first argument and the log-softmaxes of both. -/
abbrev winNarrow : List (HloOp τ sig (Elt F)) :=
  [ nullary main_cst_9 (constant S_ .f32 0xFF800000#32),
    binary main_arg0 main_cst_9 main_v40 ((fun x v => Host.reduce FloatOps.maximumf x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_10 (constant S_ .f32 0xFF800000#32),
    unary main_cst_10 main_v41 (broadcastInDim S4096 ![] bcast_S_S4096 : (⟨S_, .f32⟩ : BufTy).Contents (Elt F) → (⟨S4096, .f32⟩ : BufTy).Contents (Elt F)),
    binary main_v41 main_v40 main_v42 (maximumf : (⟨S4096, .f32⟩ : BufTy).Contents (Elt F) → (⟨S4096, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v44 main_v45 (subf : (⟨S4096x1024, .f32⟩ : BufTy).Contents (Elt F) → (⟨S4096x1024, .f32⟩ : BufTy).Contents (Elt F) → (⟨S4096x1024, .f32⟩ : BufTy).Contents (Elt F)),
    unary main_v45 main_v46 (Host.exp : (⟨S4096x1024, .f32⟩ : BufTy).Contents (Elt F) → (⟨S4096x1024, .f32⟩ : BufTy).Contents (Elt F)),
    nullary main_cst_11 (constant S_ .f32 0x00000000#32),
    binary main_v46 main_cst_11 main_v47 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    unary main_v48 main_v49 (broadcastInDim S4096x1024 ![0, 1] bcast_S4096x1_S4096x1024_0_1 : (⟨S4096x1, .f32⟩ : BufTy).Contents (Elt F) → (⟨S4096x1024, .f32⟩ : BufTy).Contents (Elt F)),
    binary main_v46 main_v49 main_v50 (Host.divf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S_, .f32⟩) main_call6_cst) (constant S_ .f32 0xFF800000#32),
    TRef.binary (TRef.of (T := ⟨S4096x1024, .f32⟩) main_arg0) (TRef.of (T := ⟨S_, .f32⟩) main_call6_cst) (TRef.of (T := ⟨S4096, .f32⟩) main_call6_v0) (fun x v => Host.reduce FloatOps.maximumf x v reducesTo_S4096x1024_S4096_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_call6_v0) (TRef.of (T := ⟨S4096, .f32⟩) main_call6_v2) maximumf,
    TRef.unary (TRef.of (T := ⟨S4096, .f32⟩) main_call6_v2) (TRef.of (T := ⟨S4096x1, .f32⟩) main_call6_v3) (broadcastInDim S4096x1 ![0] bcast_S4096_S4096x1_0),
    TRef.unary (TRef.of (T := ⟨S4096x1, .f32⟩) main_call6_v3) (TRef.of (T := ⟨S4096x1024, .f32⟩) main_call6_v4) (broadcastInDim S4096x1024 ![0, 1] bcast_S4096x1_S4096x1024_0_1),
    TRef.binary (TRef.of (T := ⟨S4096x1024, .f32⟩) main_arg0) (TRef.of (T := ⟨S4096x1024, .f32⟩) main_call6_v4) (TRef.of (T := ⟨S4096x1024, .f32⟩) main_call6_v5) subf,
    TRef.unary (TRef.of (T := ⟨S4096x1024, .f32⟩) main_call6_v5) (TRef.of (T := ⟨S4096x1024, .f32⟩) main_call6_v6) Host.exp,
    TRef.nullary (TRef.of (T := ⟨S_, .f32⟩) main_call6_cst_1) (constant S_ .f32 0x00000000#32),
    TRef.binary (TRef.of (T := ⟨S4096x1024, .f32⟩) main_call6_v6) (TRef.of (T := ⟨S_, .f32⟩) main_call6_cst_1) (TRef.of (T := ⟨S4096, .f32⟩) main_call6_v7) (fun x v => Host.reduceAdd x v reducesTo_S4096x1024_S4096_d1 h_S_),
    TRef.unary (TRef.of (T := ⟨S4096, .f32⟩) main_call6_v7) (TRef.of (T := ⟨S4096x1, .f32⟩) main_call6_v8) (broadcastInDim S4096x1 ![0] bcast_S4096_S4096x1_0),
    TRef.unary (TRef.of (T := ⟨S4096x1, .f32⟩) main_call6_v8) (TRef.of (T := ⟨S4096x1, .f32⟩) main_call6_v9) Host.log,
    TRef.unary (TRef.of (T := ⟨S4096x1, .f32⟩) main_call6_v9) (TRef.of (T := ⟨S4096x1024, .f32⟩) main_call6_v10) (broadcastInDim S4096x1024 ![0, 1] bcast_S4096x1_S4096x1024_0_1),
    TRef.binary (TRef.of (T := ⟨S4096x1024, .f32⟩) main_call6_v5) (TRef.of (T := ⟨S4096x1024, .f32⟩) main_call6_v10) (TRef.of (T := ⟨S4096x1024, .f32⟩) main_v51) subf,
    TRef.nullary (TRef.of (T := ⟨S_, .f32⟩) main_call7_cst) (constant S_ .f32 0xFF800000#32),
    TRef.binary (TRef.of (T := ⟨S4096x1024, .f32⟩) main_arg1) (TRef.of (T := ⟨S_, .f32⟩) main_call7_cst) (TRef.of (T := ⟨S4096, .f32⟩) main_call7_v0) (fun x v => Host.reduce FloatOps.maximumf x v reducesTo_S4096x1024_S4096_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S4096, .f32⟩) main_call7_v1) (broadcastInDim S4096 ![] bcast_S_S4096),
    TRef.binary (TRef.of (T := ⟨S4096, .f32⟩) main_call7_v1) (TRef.of (T := ⟨S4096, .f32⟩) main_call7_v0) (TRef.of (T := ⟨S4096, .f32⟩) main_call7_v2) maximumf,
    TRef.unary (TRef.of (T := ⟨S4096, .f32⟩) main_call7_v2) (TRef.of (T := ⟨S4096x1, .f32⟩) main_call7_v3) (broadcastInDim S4096x1 ![0] bcast_S4096_S4096x1_0),
    TRef.unary (TRef.of (T := ⟨S4096x1, .f32⟩) main_call7_v3) (TRef.of (T := ⟨S4096x1024, .f32⟩) main_call7_v4) (broadcastInDim S4096x1024 ![0, 1] bcast_S4096x1_S4096x1024_0_1),
    TRef.binary (TRef.of (T := ⟨S4096x1024, .f32⟩) main_arg1) (TRef.of (T := ⟨S4096x1024, .f32⟩) main_call7_v4) (TRef.of (T := ⟨S4096x1024, .f32⟩) main_call7_v5) subf,
    TRef.unary (TRef.of (T := ⟨S4096x1024, .f32⟩) main_call7_v5) (TRef.of (T := ⟨S4096x1024, .f32⟩) main_call7_v6) Host.exp,
    TRef.nullary (TRef.of (T := ⟨S_, .f32⟩) main_call7_cst_1) (constant S_ .f32 0x00000000#32),
    TRef.binary (TRef.of (T := ⟨S4096x1024, .f32⟩) main_call7_v6) (TRef.of (T := ⟨S_, .f32⟩) main_call7_cst_1) (TRef.of (T := ⟨S4096, .f32⟩) main_call7_v7) (fun x v => Host.reduceAdd x v reducesTo_S4096x1024_S4096_d1 h_S_),
    TRef.unary (TRef.of (T := ⟨S4096, .f32⟩) main_call7_v7) (TRef.of (T := ⟨S4096x1, .f32⟩) main_call7_v8) (broadcastInDim S4096x1 ![0] bcast_S4096_S4096x1_0),
    TRef.unary (TRef.of (T := ⟨S4096x1, .f32⟩) main_call7_v8) (TRef.of (T := ⟨S4096x1, .f32⟩) main_call7_v9) Host.log,
    TRef.unary (TRef.of (T := ⟨S4096x1, .f32⟩) main_call7_v9) (TRef.of (T := ⟨S4096x1024, .f32⟩) main_call7_v10) (broadcastInDim S4096x1024 ![0, 1] bcast_S4096x1_S4096x1024_0_1),
    TRef.binary (TRef.of (T := ⟨S4096x1024, .f32⟩) main_call7_v5) (TRef.of (T := ⟨S4096x1024, .f32⟩) main_call7_v10) (TRef.of (T := ⟨S4096x1024, .f32⟩) main_v52) subf ]

/-- The mean over the rows of the narrow KL terms, and the sum of the two means. -/
abbrev winMeanN : List (HloOp τ sig (Elt F)) :=
  [ binary main_v51 main_v52 main_v53 (subf : (⟨S4096x1024, .f32⟩ : BufTy).Contents (Elt F) → (⟨S4096x1024, .f32⟩ : BufTy).Contents (Elt F) → (⟨S4096x1024, .f32⟩ : BufTy).Contents (Elt F)),
    binary main_v50 main_v53 main_v54 (mulf : (⟨S4096x1024, .f32⟩ : BufTy).Contents (Elt F) → (⟨S4096x1024, .f32⟩ : BufTy).Contents (Elt F) → (⟨S4096x1024, .f32⟩ : BufTy).Contents (Elt F)),
    nullary main_cst_12 (constant S_ .f32 0x00000000#32),
    binary main_v54 main_cst_12 main_v55 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_13 (constant S_ .f32 0x00000000#32),
    binary main_v55 main_cst_13 main_v56 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_14 (constant S_ .f32 0x45800000#32),
    binary main_v56 main_cst_14 main_v57 (Host.divf : (⟨S_, .f32⟩ : BufTy).Contents (Elt F) → (⟨S_, .f32⟩ : BufTy).Contents (Elt F) → (⟨S_, .f32⟩ : BufTy).Contents (Elt F)),
    binary main_v39 main_v57 main_v58 (addf : (⟨S_, .f32⟩ : BufTy).Contents (Elt F) → (⟨S_, .f32⟩ : BufTy).Contents (Elt F) → (⟨S_, .f32⟩ : BufTy).Contents (Elt F)) ]

/-- The program's operations, in order (a called function's operations stand in its call's place). -/
abbrev ops : List (HloOp τ sig (Elt F)) :=
  [ TRef.binary (TRef.of (T := ⟨S4096x1024, .f32⟩) main_arg0) (TRef.of (T := ⟨S4096x1024, .f32⟩) main_arg0) (TRef.of (T := ⟨S4096x1024, .f32⟩) main_call0_v0) mulf,
    TRef.nullary (TRef.of (T := ⟨S_, .f32⟩) main_call0_cst) (constant S_ .f32 0x00000000#32),
    TRef.binary (TRef.of (T := ⟨S4096x1024, .f32⟩) main_call0_v0) (TRef.of (T := ⟨S_, .f32⟩) main_call0_cst) (TRef.of (T := ⟨S4096, .f32⟩) main_call0_v1) (fun x v => Host.reduceAdd x v reducesTo_S4096x1024_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v3 main_v4 (Host.divf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_arg0) (TRef.of (T := ⟨S4096x1024, .f32⟩) main_arg0) (TRef.of (T := ⟨S4096x1024, .f32⟩) main_call1_v0) mulf,
    TRef.nullary (TRef.of (T := ⟨S_, .f32⟩) main_call1_cst) (constant S_ .f32 0x00000000#32),
    TRef.binary (TRef.of (T := ⟨S4096x1024, .f32⟩) main_call1_v0) (TRef.of (T := ⟨S_, .f32⟩) main_call1_cst) (TRef.of (T := ⟨S4096, .f32⟩) main_call1_v1) (fun x v => Host.reduceAdd x v reducesTo_S4096x1024_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x322BCC77#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v8 main_v9 (Host.divf : (⟨S4096x1024, .f32⟩ : BufTy).Contents (Elt F) → (⟨S4096x1024, .f32⟩ : BufTy).Contents (Elt F) → (⟨S4096x1024, .f32⟩ : BufTy).Contents (Elt F)),
    binary main_v9 main_v4 main_v10 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)),
    TRef.binary (TRef.of (T := ⟨S4096x1024, .f32⟩) main_arg1) (TRef.of (T := ⟨S4096x1024, .f32⟩) main_arg1) (TRef.of (T := ⟨S4096x1024, .f32⟩) main_call2_v0) mulf,
    TRef.nullary (TRef.of (T := ⟨S_, .f32⟩) main_call2_cst) (constant S_ .f32 0x00000000#32),
    TRef.binary (TRef.of (T := ⟨S4096x1024, .f32⟩) main_call2_v0) (TRef.of (T := ⟨S_, .f32⟩) main_call2_cst) (TRef.of (T := ⟨S4096, .f32⟩) main_call2_v1) (fun x v => Host.reduceAdd x v reducesTo_S4096x1024_S4096_d1 h_S_),
    TRef.unary (TRef.of (T := ⟨S4096, .f32⟩) main_call2_v1) (TRef.of (T := ⟨S4096x1, .f32⟩) main_call2_v2) (broadcastInDim S4096x1 ![0] bcast_S4096_S4096x1_0),
    TRef.unary (TRef.of (T := ⟨S4096x1, .f32⟩) main_call2_v2) (TRef.of (T := ⟨S4096x1, .f32⟩) main_v11) Host.sqrt,
    nullary main_cst_1 (constant S_ .f32 0x322BCC77#32),
    unary main_cst_1 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x1024 ![0, 1] bcast_S4096x1_S4096x1024_0_1 : (⟨S4096x1, .f32⟩ : BufTy).Contents (Elt F) → (⟨S4096x1024, .f32⟩ : BufTy).Contents (Elt F)),
    binary main_arg1 main_v14 main_v15 (Host.divf : (⟨S4096x1024, .f32⟩ : BufTy).Contents (Elt F) → (⟨S4096x1024, .f32⟩ : BufTy).Contents (Elt F) → (⟨S4096x1024, .f32⟩ : BufTy).Contents (Elt F)),
    TRef.binary (TRef.of (T := ⟨S4096x1024, .f32⟩) main_arg1) (TRef.of (T := ⟨S4096x1024, .f32⟩) main_arg1) (TRef.of (T := ⟨S4096x1024, .f32⟩) main_call3_v0) mulf,
    TRef.nullary (TRef.of (T := ⟨S_, .f32⟩) main_call3_cst) (constant S_ .f32 0x00000000#32),
    TRef.binary (TRef.of (T := ⟨S4096x1024, .f32⟩) main_call3_v0) (TRef.of (T := ⟨S_, .f32⟩) main_call3_cst) (TRef.of (T := ⟨S4096, .f32⟩) main_call3_v1) (fun x v => Host.reduceAdd x v reducesTo_S4096x1024_S4096_d1 h_S_),
    TRef.unary (TRef.of (T := ⟨S4096, .f32⟩) main_call3_v1) (TRef.of (T := ⟨S4096x1, .f32⟩) main_call3_v2) (broadcastInDim S4096x1 ![0] bcast_S4096_S4096x1_0),
    TRef.unary (TRef.of (T := ⟨S4096x1, .f32⟩) main_call3_v2) (TRef.of (T := ⟨S4096x1, .f32⟩) main_v16) Host.sqrt,
    nullary main_cst_2 (constant S_ .f32 0x322BCC77#32),
    unary main_cst_2 main_v17 (broadcastInDim S4096x1 ![] bcast_S_S4096x1 : (⟨S_, .f32⟩ : BufTy).Contents (Elt F) → (⟨S4096x1, .f32⟩ : BufTy).Contents (Elt F)),
    binary main_v16 main_v17 main_v18 (maximumf : (⟨S4096x1, .f32⟩ : BufTy).Contents (Elt F) → (⟨S4096x1, .f32⟩ : BufTy).Contents (Elt F) → (⟨S4096x1, .f32⟩ : BufTy).Contents (Elt F)),
    unary main_v18 main_v19 (broadcastInDim S4096x1024 ![0, 1] bcast_S4096x1_S4096x1024_0_1 : (⟨S4096x1, .f32⟩ : BufTy).Contents (Elt F) → (⟨S4096x1024, .f32⟩ : BufTy).Contents (Elt F)),
    binary main_arg1 main_v19 main_v20 (Host.divf : (⟨S4096x1024, .f32⟩ : BufTy).Contents (Elt F) → (⟨S4096x1024, .f32⟩ : BufTy).Contents (Elt F) → (⟨S4096x1024, .f32⟩ : BufTy).Contents (Elt F)),
    binary main_v20 main_v15 main_v21 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)),
    nullary main_cst_3 (constant S_ .f32 0xFF800000#32),
    binary main_v10 main_cst_3 main_v22 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_4 (constant S_ .f32 0xFF800000#32),
    unary main_cst_4 main_v23 (broadcastInDim S4096 ![] bcast_S_S4096 : (⟨S_, .f32⟩ : BufTy).Contents (Elt F) → (⟨S4096, .f32⟩ : BufTy).Contents (Elt F)),
    binary main_v23 main_v22 main_v24 (maximumf : (⟨S4096, .f32⟩ : BufTy).Contents (Elt F) → (⟨S4096, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    unary main_v25 main_v26 (broadcastInDim S4096x4096 ![0, 1] bcast_S4096x1_S4096x4096_0_1 : (⟨S4096x1, .f32⟩ : BufTy).Contents (Elt F) → (⟨S4096x4096, .f32⟩ : BufTy).Contents (Elt F)),
    binary main_v10 main_v26 main_v27 (subf : (⟨S4096x4096, .f32⟩ : BufTy).Contents (Elt F) → (⟨S4096x4096, .f32⟩ : BufTy).Contents (Elt F) → (⟨S4096x4096, .f32⟩ : BufTy).Contents (Elt F)),
    unary main_v27 main_v28 (Host.exp : (⟨S4096x4096, .f32⟩ : BufTy).Contents (Elt F) → (⟨S4096x4096, .f32⟩ : BufTy).Contents (Elt F)),
    nullary main_cst_5 (constant S_ .f32 0x00000000#32),
    binary main_v28 main_cst_5 main_v29 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v29 main_v30 (broadcastInDim S4096x1 ![0] bcast_S4096_S4096x1_0 : (⟨S4096, .f32⟩ : BufTy).Contents (Elt F) → (⟨S4096x1, .f32⟩ : BufTy).Contents (Elt F)),
    unary main_v30 main_v31 (broadcastInDim S4096x4096 ![0, 1] bcast_S4096x1_S4096x4096_0_1 : (⟨S4096x1, .f32⟩ : BufTy).Contents (Elt F) → (⟨S4096x4096, .f32⟩ : BufTy).Contents (Elt F)),
    binary main_v28 main_v31 main_v32 (Host.divf : (⟨S4096x4096, .f32⟩ : BufTy).Contents (Elt F) → (⟨S4096x4096, .f32⟩ : BufTy).Contents (Elt F) → (⟨S4096x4096, .f32⟩ : BufTy).Contents (Elt F)),
    TRef.nullary (TRef.of (T := ⟨S_, .f32⟩) main_call4_cst) (constant S_ .f32 0xFF800000#32),
    TRef.binary (TRef.of (T := ⟨S4096x4096, .f32⟩) main_v10) (TRef.of (T := ⟨S_, .f32⟩) main_call4_cst) (TRef.of (T := ⟨S4096, .f32⟩) main_call4_v0) (fun x v => Host.reduce FloatOps.maximumf x v reducesTo_S4096x4096_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x4096, .f32⟩) main_call4_v4) (broadcastInDim S4096x4096 ![0, 1] bcast_S4096x1_S4096x4096_0_1),
    TRef.binary (TRef.of (T := ⟨S4096x4096, .f32⟩) main_v10) (TRef.of (T := ⟨S4096x4096, .f32⟩) main_call4_v4) (TRef.of (T := ⟨S4096x4096, .f32⟩) main_call4_v5) subf,
    TRef.unary (TRef.of (T := ⟨S4096x4096, .f32⟩) main_call4_v5) (TRef.of (T := ⟨S4096x4096, .f32⟩) main_call4_v6) Host.exp,
    TRef.nullary (TRef.of (T := ⟨S_, .f32⟩) main_call4_cst_1) (constant S_ .f32 0x00000000#32),
    TRef.binary (TRef.of (T := ⟨S4096x4096, .f32⟩) main_call4_v6) (TRef.of (T := ⟨S_, .f32⟩) main_call4_cst_1) (TRef.of (T := ⟨S4096, .f32⟩) main_call4_v7) (fun x v => Host.reduceAdd x v reducesTo_S4096x4096_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x4096, .f32⟩) main_call4_v10) (broadcastInDim S4096x4096 ![0, 1] bcast_S4096x1_S4096x4096_0_1),
    TRef.binary (TRef.of (T := ⟨S4096x4096, .f32⟩) main_call4_v5) (TRef.of (T := ⟨S4096x4096, .f32⟩) main_call4_v10) (TRef.of (T := ⟨S4096x4096, .f32⟩) main_v33) subf,
    TRef.nullary (TRef.of (T := ⟨S_, .f32⟩) main_call5_cst) (constant S_ .f32 0xFF800000#32),
    TRef.binary (TRef.of (T := ⟨S4096x4096, .f32⟩) main_v21) (TRef.of (T := ⟨S_, .f32⟩) main_call5_cst) (TRef.of (T := ⟨S4096, .f32⟩) main_call5_v0) (fun x v => Host.reduce FloatOps.maximumf x v reducesTo_S4096x4096_S4096_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S4096, .f32⟩) main_call5_v1) (broadcastInDim S4096 ![] bcast_S_S4096),
    TRef.binary (TRef.of (T := ⟨S4096, .f32⟩) main_call5_v1) (TRef.of (T := ⟨S4096, .f32⟩) main_call5_v0) (TRef.of (T := ⟨S4096, .f32⟩) main_call5_v2) maximumf,
    TRef.unary (TRef.of (T := ⟨S4096, .f32⟩) main_call5_v2) (TRef.of (T := ⟨S4096x1, .f32⟩) main_call5_v3) (broadcastInDim S4096x1 ![0] bcast_S4096_S4096x1_0),
    TRef.unary (TRef.of (T := ⟨S4096x1, .f32⟩) main_call5_v3) (TRef.of (T := ⟨S4096x4096, .f32⟩) main_call5_v4) (broadcastInDim S4096x4096 ![0, 1] bcast_S4096x1_S4096x4096_0_1),
    TRef.binary (TRef.of (T := ⟨S4096x4096, .f32⟩) main_v21) (TRef.of (T := ⟨S4096x4096, .f32⟩) main_call5_v4) (TRef.of (T := ⟨S4096x4096, .f32⟩) main_call5_v5) subf,
    TRef.unary (TRef.of (T := ⟨S4096x4096, .f32⟩) main_call5_v5) (TRef.of (T := ⟨S4096x4096, .f32⟩) main_call5_v6) Host.exp,
    TRef.nullary (TRef.of (T := ⟨S_, .f32⟩) main_call5_cst_1) (constant S_ .f32 0x00000000#32),
    TRef.binary (TRef.of (T := ⟨S4096x4096, .f32⟩) main_call5_v6) (TRef.of (T := ⟨S_, .f32⟩) main_call5_cst_1) (TRef.of (T := ⟨S4096, .f32⟩) main_call5_v7) (fun x v => Host.reduceAdd x v reducesTo_S4096x4096_S4096_d1 h_S_),
    TRef.unary (TRef.of (T := ⟨S4096, .f32⟩) main_call5_v7) (TRef.of (T := ⟨S4096x1, .f32⟩) main_call5_v8) (broadcastInDim S4096x1 ![0] bcast_S4096_S4096x1_0),
    TRef.unary (TRef.of (T := ⟨S4096x1, .f32⟩) main_call5_v8) (TRef.of (T := ⟨S4096x1, .f32⟩) main_call5_v9) Host.log,
    TRef.unary (TRef.of (T := ⟨S4096x1, .f32⟩) main_call5_v9) (TRef.of (T := ⟨S4096x4096, .f32⟩) main_call5_v10) (broadcastInDim S4096x4096 ![0, 1] bcast_S4096x1_S4096x4096_0_1),
    TRef.binary (TRef.of (T := ⟨S4096x4096, .f32⟩) main_call5_v5) (TRef.of (T := ⟨S4096x4096, .f32⟩) main_call5_v10) (TRef.of (T := ⟨S4096x4096, .f32⟩) main_v34) subf,
    binary main_v33 main_v34 main_v35 (subf : (⟨S4096x4096, .f32⟩ : BufTy).Contents (Elt F) → (⟨S4096x4096, .f32⟩ : BufTy).Contents (Elt F) → (⟨S4096x4096, .f32⟩ : BufTy).Contents (Elt F)),
    binary main_v32 main_v35 main_v36 (mulf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x00000000#32),
    binary main_v36 main_cst_6 main_v37 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_7 (constant S_ .f32 0x00000000#32),
    binary main_v37 main_cst_7 main_v38 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_8 (constant S_ .f32 0x45800000#32),
    binary main_v38 main_cst_8 main_v39 (Host.divf : (⟨S_, .f32⟩ : BufTy).Contents (Elt F) → (⟨S_, .f32⟩ : BufTy).Contents (Elt F) → (⟨S_, .f32⟩ : BufTy).Contents (Elt F)),
    nullary main_cst_9 (constant S_ .f32 0xFF800000#32),
    binary main_arg0 main_cst_9 main_v40 ((fun x v => Host.reduce FloatOps.maximumf x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_10 (constant S_ .f32 0xFF800000#32),
    unary main_cst_10 main_v41 (broadcastInDim S4096 ![] bcast_S_S4096 : (⟨S_, .f32⟩ : BufTy).Contents (Elt F) → (⟨S4096, .f32⟩ : BufTy).Contents (Elt F)),
    binary main_v41 main_v40 main_v42 (maximumf : (⟨S4096, .f32⟩ : BufTy).Contents (Elt F) → (⟨S4096, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v44 main_v45 (subf : (⟨S4096x1024, .f32⟩ : BufTy).Contents (Elt F) → (⟨S4096x1024, .f32⟩ : BufTy).Contents (Elt F) → (⟨S4096x1024, .f32⟩ : BufTy).Contents (Elt F)),
    unary main_v45 main_v46 (Host.exp : (⟨S4096x1024, .f32⟩ : BufTy).Contents (Elt F) → (⟨S4096x1024, .f32⟩ : BufTy).Contents (Elt F)),
    nullary main_cst_11 (constant S_ .f32 0x00000000#32),
    binary main_v46 main_cst_11 main_v47 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    unary main_v48 main_v49 (broadcastInDim S4096x1024 ![0, 1] bcast_S4096x1_S4096x1024_0_1 : (⟨S4096x1, .f32⟩ : BufTy).Contents (Elt F) → (⟨S4096x1024, .f32⟩ : BufTy).Contents (Elt F)),
    binary main_v46 main_v49 main_v50 (Host.divf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S_, .f32⟩) main_call6_cst) (constant S_ .f32 0xFF800000#32),
    TRef.binary (TRef.of (T := ⟨S4096x1024, .f32⟩) main_arg0) (TRef.of (T := ⟨S_, .f32⟩) main_call6_cst) (TRef.of (T := ⟨S4096, .f32⟩) main_call6_v0) (fun x v => Host.reduce FloatOps.maximumf x v reducesTo_S4096x1024_S4096_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S4096, .f32⟩) main_call6_v1) (broadcastInDim S4096 ![] bcast_S_S4096),
    TRef.binary (TRef.of (T := ⟨S4096, .f32⟩) main_call6_v1) (TRef.of (T := ⟨S4096, .f32⟩) main_call6_v0) (TRef.of (T := ⟨S4096, .f32⟩) main_call6_v2) maximumf,
    TRef.unary (TRef.of (T := ⟨S4096, .f32⟩) main_call6_v2) (TRef.of (T := ⟨S4096x1, .f32⟩) main_call6_v3) (broadcastInDim S4096x1 ![0] bcast_S4096_S4096x1_0),
    TRef.unary (TRef.of (T := ⟨S4096x1, .f32⟩) main_call6_v3) (TRef.of (T := ⟨S4096x1024, .f32⟩) main_call6_v4) (broadcastInDim S4096x1024 ![0, 1] bcast_S4096x1_S4096x1024_0_1),
    TRef.binary (TRef.of (T := ⟨S4096x1024, .f32⟩) main_arg0) (TRef.of (T := ⟨S4096x1024, .f32⟩) main_call6_v4) (TRef.of (T := ⟨S4096x1024, .f32⟩) main_call6_v5) subf,
    TRef.unary (TRef.of (T := ⟨S4096x1024, .f32⟩) main_call6_v5) (TRef.of (T := ⟨S4096x1024, .f32⟩) main_call6_v6) Host.exp,
    TRef.nullary (TRef.of (T := ⟨S_, .f32⟩) main_call6_cst_1) (constant S_ .f32 0x00000000#32),
    TRef.binary (TRef.of (T := ⟨S4096x1024, .f32⟩) main_call6_v6) (TRef.of (T := ⟨S_, .f32⟩) main_call6_cst_1) (TRef.of (T := ⟨S4096, .f32⟩) main_call6_v7) (fun x v => Host.reduceAdd x v reducesTo_S4096x1024_S4096_d1 h_S_),
    TRef.unary (TRef.of (T := ⟨S4096, .f32⟩) main_call6_v7) (TRef.of (T := ⟨S4096x1, .f32⟩) main_call6_v8) (broadcastInDim S4096x1 ![0] bcast_S4096_S4096x1_0),
    TRef.unary (TRef.of (T := ⟨S4096x1, .f32⟩) main_call6_v8) (TRef.of (T := ⟨S4096x1, .f32⟩) main_call6_v9) Host.log,
    TRef.unary (TRef.of (T := ⟨S4096x1, .f32⟩) main_call6_v9) (TRef.of (T := ⟨S4096x1024, .f32⟩) main_call6_v10) (broadcastInDim S4096x1024 ![0, 1] bcast_S4096x1_S4096x1024_0_1),
    TRef.binary (TRef.of (T := ⟨S4096x1024, .f32⟩) main_call6_v5) (TRef.of (T := ⟨S4096x1024, .f32⟩) main_call6_v10) (TRef.of (T := ⟨S4096x1024, .f32⟩) main_v51) subf,
    TRef.nullary (TRef.of (T := ⟨S_, .f32⟩) main_call7_cst) (constant S_ .f32 0xFF800000#32),
    TRef.binary (TRef.of (T := ⟨S4096x1024, .f32⟩) main_arg1) (TRef.of (T := ⟨S_, .f32⟩) main_call7_cst) (TRef.of (T := ⟨S4096, .f32⟩) main_call7_v0) (fun x v => Host.reduce FloatOps.maximumf x v reducesTo_S4096x1024_S4096_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S4096, .f32⟩) main_call7_v1) (broadcastInDim S4096 ![] bcast_S_S4096),
    TRef.binary (TRef.of (T := ⟨S4096, .f32⟩) main_call7_v1) (TRef.of (T := ⟨S4096, .f32⟩) main_call7_v0) (TRef.of (T := ⟨S4096, .f32⟩) main_call7_v2) maximumf,
    TRef.unary (TRef.of (T := ⟨S4096, .f32⟩) main_call7_v2) (TRef.of (T := ⟨S4096x1, .f32⟩) main_call7_v3) (broadcastInDim S4096x1 ![0] bcast_S4096_S4096x1_0),
    TRef.unary (TRef.of (T := ⟨S4096x1, .f32⟩) main_call7_v3) (TRef.of (T := ⟨S4096x1024, .f32⟩) main_call7_v4) (broadcastInDim S4096x1024 ![0, 1] bcast_S4096x1_S4096x1024_0_1),
    TRef.binary (TRef.of (T := ⟨S4096x1024, .f32⟩) main_arg1) (TRef.of (T := ⟨S4096x1024, .f32⟩) main_call7_v4) (TRef.of (T := ⟨S4096x1024, .f32⟩) main_call7_v5) subf,
    TRef.unary (TRef.of (T := ⟨S4096x1024, .f32⟩) main_call7_v5) (TRef.of (T := ⟨S4096x1024, .f32⟩) main_call7_v6) Host.exp,
    TRef.nullary (TRef.of (T := ⟨S_, .f32⟩) main_call7_cst_1) (constant S_ .f32 0x00000000#32),
    TRef.binary (TRef.of (T := ⟨S4096x1024, .f32⟩) main_call7_v6) (TRef.of (T := ⟨S_, .f32⟩) main_call7_cst_1) (TRef.of (T := ⟨S4096, .f32⟩) main_call7_v7) (fun x v => Host.reduceAdd x v reducesTo_S4096x1024_S4096_d1 h_S_),
    TRef.unary (TRef.of (T := ⟨S4096, .f32⟩) main_call7_v7) (TRef.of (T := ⟨S4096x1, .f32⟩) main_call7_v8) (broadcastInDim S4096x1 ![0] bcast_S4096_S4096x1_0),
    TRef.unary (TRef.of (T := ⟨S4096x1, .f32⟩) main_call7_v8) (TRef.of (T := ⟨S4096x1, .f32⟩) main_call7_v9) Host.log,
    TRef.unary (TRef.of (T := ⟨S4096x1, .f32⟩) main_call7_v9) (TRef.of (T := ⟨S4096x1024, .f32⟩) main_call7_v10) (broadcastInDim S4096x1024 ![0, 1] bcast_S4096x1_S4096x1024_0_1),
    TRef.binary (TRef.of (T := ⟨S4096x1024, .f32⟩) main_call7_v5) (TRef.of (T := ⟨S4096x1024, .f32⟩) main_call7_v10) (TRef.of (T := ⟨S4096x1024, .f32⟩) main_v52) subf,
    binary main_v51 main_v52 main_v53 (subf : (⟨S4096x1024, .f32⟩ : BufTy).Contents (Elt F) → (⟨S4096x1024, .f32⟩ : BufTy).Contents (Elt F) → (⟨S4096x1024, .f32⟩ : BufTy).Contents (Elt F)),
    binary main_v50 main_v53 main_v54 (mulf : (⟨S4096x1024, .f32⟩ : BufTy).Contents (Elt F) → (⟨S4096x1024, .f32⟩ : BufTy).Contents (Elt F) → (⟨S4096x1024, .f32⟩ : BufTy).Contents (Elt F)),
    nullary main_cst_12 (constant S_ .f32 0x00000000#32),
    binary main_v54 main_cst_12 main_v55 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_13 (constant S_ .f32 0x00000000#32),
    binary main_v55 main_cst_13 main_v56 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_14 (constant S_ .f32 0x45800000#32),
    binary main_v56 main_cst_14 main_v57 (Host.divf : (⟨S_, .f32⟩ : BufTy).Contents (Elt F) → (⟨S_, .f32⟩ : BufTy).Contents (Elt F) → (⟨S_, .f32⟩ : BufTy).Contents (Elt F)),
    binary main_v39 main_v57 main_v58 (addf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = winCos ++ (winWide ++ (winMeanW ++ (winNarrow ++ winMeanN))) := rfl

/-! ## What each window computes, and what it leaves alone -/

set_option maxRecDepth 1000000 in
set_option maxHeartbeats 40000000 in
theorem cos_v10 (W : Valuation τ sig (Elt F)) : after winCos W (Proc.devRef .tc main_v10) = cosine (W (Proc.devRef .tc main_arg0)) := by
  after_results_simp <;> (try simp only [ofBuf_toBuf]) <;> rfl

set_option maxRecDepth 1000000 in
set_option maxHeartbeats 40000000 in
theorem cos_v21 (W : Valuation τ sig (Elt F)) : after winCos W (Proc.devRef .tc main_v21) = cosine (W (Proc.devRef .tc main_arg1)) := by
  after_results_simp <;> (try simp only [ofBuf_toBuf]) <;> rfl

set_option maxRecDepth 1000000 in
set_option maxHeartbeats 40000000 in
theorem cos_arg0 (W : Valuation τ sig (Elt F)) : after winCos W (Proc.devRef .tc main_arg0) = W (Proc.devRef .tc main_arg0) := by
  after_results_simp <;> (try simp only [ofBuf_toBuf]) <;> rfl

set_option maxRecDepth 1000000 in
set_option maxHeartbeats 40000000 in
theorem cos_arg1 (W : Valuation τ sig (Elt F)) : after winCos W (Proc.devRef .tc main_arg1) = W (Proc.devRef .tc main_arg1) := by
  after_results_simp <;> (try simp only [ofBuf_toBuf]) <;> rfl

set_option maxRecDepth 1000000 in
set_option maxHeartbeats 40000000 in
theorem wide_v32 (W : Valuation τ sig (Elt F)) : after winWide W (Proc.devRef .tc main_v32) = softW (W (Proc.devRef .tc main_v10)) := by
  after_results_simp <;> (try simp only [ofBuf_toBuf]) <;> rfl

set_option maxRecDepth 1000000 in
set_option maxHeartbeats 40000000 in
theorem wide_v33 (W : Valuation τ sig (Elt F)) : after winWide W (Proc.devRef .tc main_v33) = logW (W (Proc.devRef .tc main_v10)) := by
  after_results_simp <;> (try simp only [ofBuf_toBuf]) <;> rfl

set_option maxRecDepth 1000000 in
set_option maxHeartbeats 40000000 in
theorem wide_v34 (W : Valuation τ sig (Elt F)) : after winWide W (Proc.devRef .tc main_v34) = logW (W (Proc.devRef .tc main_v21)) := by
  after_results_simp <;> (try simp only [ofBuf_toBuf]) <;> rfl

set_option maxRecDepth 1000000 in
set_option maxHeartbeats 40000000 in
theorem wide_arg0 (W : Valuation τ sig (Elt F)) : after winWide W (Proc.devRef .tc main_arg0) = W (Proc.devRef .tc main_arg0) := by
  after_results_simp <;> (try simp only [ofBuf_toBuf]) <;> rfl

set_option maxRecDepth 1000000 in
set_option maxHeartbeats 40000000 in
theorem wide_arg1 (W : Valuation τ sig (Elt F)) : after winWide W (Proc.devRef .tc main_arg1) = W (Proc.devRef .tc main_arg1) := by
  after_results_simp <;> (try simp only [ofBuf_toBuf]) <;> rfl

set_option maxRecDepth 1000000 in
set_option maxHeartbeats 40000000 in
theorem meanW_v39 (W : Valuation τ sig (Elt F)) : after winMeanW W (Proc.devRef .tc main_v39) = meanOfW (W (Proc.devRef .tc main_v32)) (W (Proc.devRef .tc main_v33)) (W (Proc.devRef .tc main_v34)) := by
  after_results_simp <;> (try simp only [ofBuf_toBuf]) <;> rfl

set_option maxRecDepth 1000000 in
set_option maxHeartbeats 40000000 in
theorem meanW_arg0 (W : Valuation τ sig (Elt F)) : after winMeanW W (Proc.devRef .tc main_arg0) = W (Proc.devRef .tc main_arg0) := by
  after_results_simp <;> (try simp only [ofBuf_toBuf]) <;> rfl

set_option maxRecDepth 1000000 in
set_option maxHeartbeats 40000000 in
theorem meanW_arg1 (W : Valuation τ sig (Elt F)) : after winMeanW W (Proc.devRef .tc main_arg1) = W (Proc.devRef .tc main_arg1) := by
  after_results_simp <;> (try simp only [ofBuf_toBuf]) <;> rfl

set_option maxRecDepth 1000000 in
set_option maxHeartbeats 40000000 in
theorem narrow_v50 (W : Valuation τ sig (Elt F)) : after winNarrow W (Proc.devRef .tc main_v50) = softN (W (Proc.devRef .tc main_arg0)) := by
  after_results_simp <;> (try simp only [ofBuf_toBuf]) <;> rfl

set_option maxRecDepth 1000000 in
set_option maxHeartbeats 40000000 in
theorem narrow_v51 (W : Valuation τ sig (Elt F)) : after winNarrow W (Proc.devRef .tc main_v51) = logN (W (Proc.devRef .tc main_arg0)) := by
  after_results_simp <;> (try simp only [ofBuf_toBuf]) <;> rfl

set_option maxRecDepth 1000000 in
set_option maxHeartbeats 40000000 in
theorem narrow_v52 (W : Valuation τ sig (Elt F)) : after winNarrow W (Proc.devRef .tc main_v52) = logN (W (Proc.devRef .tc main_arg1)) := by
  after_results_simp <;> (try simp only [ofBuf_toBuf]) <;> rfl

set_option maxRecDepth 1000000 in
set_option maxHeartbeats 40000000 in
theorem narrow_v39 (W : Valuation τ sig (Elt F)) : after winNarrow W (Proc.devRef .tc main_v39) = W (Proc.devRef .tc main_v39) := by
  after_results_simp <;> (try simp only [ofBuf_toBuf]) <;> rfl

set_option maxRecDepth 1000000 in
set_option maxHeartbeats 40000000 in
theorem meanN_v58 (W : Valuation τ sig (Elt F)) : after winMeanN W (Proc.devRef .tc main_v58) = addf (W (Proc.devRef .tc main_v39)) (meanOfN (W (Proc.devRef .tc main_v50)) (W (Proc.devRef .tc main_v51)) (W (Proc.devRef .tc main_v52))) := by
  after_results_simp <;> (try simp only [ofBuf_toBuf]) <;> rfl

/-- The result buffer after the whole list, from any contents. -/
theorem ops_value (V : Valuation τ sig (Elt F)) :
    after ops V (Proc.devRef .tc main_v58) = result (V (Proc.devRef .tc main_arg0)) (V (Proc.devRef .tc main_arg1)) := by
  rw [ops_split]
  simp only [after_append]
  rw [meanN_v58, narrow_v39, meanW_v39, wide_v32, wide_v33, wide_v34, cos_v10, cos_v21,
    narrow_v50, narrow_v51, narrow_v52, meanW_arg0, meanW_arg1, wide_arg0, wide_arg1, cos_arg0, cos_arg1]
  rfl

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., nullary_bufs_sub .., binary_bufs_sub .., nullary_bufs_sub .., binary_bufs_sub .., nullary_bufs_sub .., binary_bufs_sub .., binary_bufs_sub ..⟩

set_option maxRecDepth 100000 in
set_option maxHeartbeats 40000000 in
/-- On every device, from any memory with zero counters: every weakly fair execution of the program terminates with
    its result at `result` of the argument arrays as launched, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58)
          = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v58).trans ((ops_value _).trans rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.RefRun

end
-- ==== Proof.LibHostSoftmaxRows.lean ====
/-
  A host program's row-wise softmax pieces, read by coordinates on the extended reals.

  For a matrix `y : [a, n]` a host program computes the row maxima (a reduction from the least element, joined with a
  broadcast of the least element, kept as a column and broadcast back), the shifted entries `hShift`, the row totals of
  their exponentials kept as a column `hMass`, the softmax `hSoft` (an exponential over its row's total), the
  log-softmax `hLog`, and, for a softmax `s` and two log-softmaxes, the mean over the rows of the row sums of
  `s · (l₁ - l₂)`, `hMeanOf` (a sum along the rows, a sum of the results, a quotient by a constant). Row `i` of `y` being
  `fun k => y (i, k)`, these are `shifted`, `mass`, a weight over the mass, `logp` of that row, and the mean of the
  `klIn` arrangement. Stated for any extents and any witnesses of the layout facts, so that a printed program's stages
  are instances by unfolding.
-/
import Idealize.ShloMosaic.Lib.ValueIdx
import Idealize.ShloMosaic.Lib.ValueLayout
import Idealize.ShloMosaic.PureOps.Ideal.Laws
import proofs.«122327_j31353261261534_2_alg».proof.Proof.LibHostKeepdims
import proofs.«122327_j31353261261534_2_alg».proof.Proof.LibHostRows
import proofs.«122327_j31353261261534_2_alg».proof.Proof.RowKL
import proofs.«122327_j31353261261534_2_alg».proof.Proof.Consts

noncomputable section

open scoped BigOperators

namespace Cert.LibHostSoftmaxRows

open Idealize.ShloMosaic Idealize.ShloMosaic.ValueIdx Cert.RowKL Cert.LibHostRows

variable {a n : ℕ}
  (hb2 : (⟨2, ![a, 1]⟩ : Shape).BroadcastsInDim ⟨2, ![a, n]⟩ ![0, 1])
  (hb1 : (⟨1, ![a]⟩ : Shape).BroadcastsInDim ⟨2, ![a, 1]⟩ ![0])
  (hb0 : (⟨0, ![]⟩ : Shape).BroadcastsInDim ⟨1, ![a]⟩ ![])
  (hr : (⟨2, ![a, n]⟩ : Shape).ReducesTo [1] ⟨1, ![a]⟩)
  (hr0 : (⟨1, ![a]⟩ : Shape).ReducesTo [0] ⟨0, ![]⟩)
  (hu : 0 < (⟨0, ![]⟩ : Shape).numel)

/-- A matrix's entries less their row's greatest. -/
def hShift (y : FVec Ideal ⟨2, ![a, n]⟩ .f32) : FVec Ideal ⟨2, ![a, n]⟩ .f32 :=
  subf y (broadcastInDim ⟨2, ![a, n]⟩ ![0, 1] hb2 (broadcastInDim ⟨2, ![a, 1]⟩ ![0] hb1
    (maximumf (broadcastInDim ⟨1, ![a]⟩ ![] hb0 (constant ⟨0, ![]⟩ .f32 0xFF800000#32))
      (Host.reduce FloatOps.maximumf y (constant ⟨0, ![]⟩ .f32 0xFF800000#32) hr hu))))

/-- The row totals of the exponentials, kept as a column. -/
def hMass (y : FVec Ideal ⟨2, ![a, n]⟩ .f32) : FVec Ideal ⟨2, ![a, 1]⟩ .f32 :=
  broadcastInDim ⟨2, ![a, 1]⟩ ![0] hb1
    (Host.reduceAdd (Host.exp (hShift hb2 hb1 hb0 hr hu y)) (constant ⟨0, ![]⟩ .f32 0x00000000#32) hr hu)

/-- The row-wise softmax. -/
def hSoft (y : FVec Ideal ⟨2, ![a, n]⟩ .f32) : FVec Ideal ⟨2, ![a, n]⟩ .f32 :=
  Host.divf (Host.exp (hShift hb2 hb1 hb0 hr hu y)) (broadcastInDim ⟨2, ![a, n]⟩ ![0, 1] hb2 (hMass hb2 hb1 hb0 hr hu y))

/-- The row-wise log-softmax. -/
def hLog (y : FVec Ideal ⟨2, ![a, n]⟩ .f32) : FVec Ideal ⟨2, ![a, n]⟩ .f32 :=
  subf (hShift hb2 hb1 hb0 hr hu y) (broadcastInDim ⟨2, ![a, n]⟩ ![0, 1] hb2 (Host.log (hMass hb2 hb1 hb0 hr hu y)))

/-- The mean over the rows of the row sums of `s · (l₁ - l₂)`, the count given by its bit pattern. -/
def hMeanOf (cnt : BitVec 32) (s l₁ l₂ : FVec Ideal ⟨2, ![a, n]⟩ .f32) : FVec Ideal ⟨0, ![]⟩ .f32 :=
  Host.divf (Host.reduceAdd (Host.reduceAdd (mulf s (subf l₁ l₂)) (constant ⟨0, ![]⟩ .f32 0x00000000#32) hr hu)
    (constant ⟨0, ![]⟩ .f32 0x00000000#32) hr0 hu) (constant ⟨0, ![]⟩ .f32 cnt)

theorem hShift_apply (y : FVec Ideal ⟨2, ![a, n]⟩ .f32) (i : Fin a) (j : Fin n) :
    hShift hb2 hb1 hb0 hr hu y (ix2 i j) = shifted (fun k => y (ix2 i k)) j := by
  have hc : ∀ idx, constant (F := Ideal) ⟨0, ![]⟩ .f32 0xFF800000#32 idx = ⊥ := fun _ => Cert.Consts.ofBits_negInf
  unfold hShift shifted top
  show y (ix2 i j) - _ = _
  refine congrArg (y (ix2 i j) - ·) ?_
  refine (broadcastInDim_a1_ab_apply ![0, 1] hb2 rfl _ i j).trans ?_
  refine (broadcastInDim_a_a1_apply ![0] hb1 rfl _ i 0).trans ?_
  show max _ _ = _
  refine (congrArg₂ max (broadcastInDim_scalar_apply ![] hb0 _ _)
    (hostReduce_max_rows_apply y _ hr ⟨hr.1, Nat.one_pos, hr.2⟩ hu i)).trans ?_
  rw [hc, hc]
  exact max_eq_right bot_le

theorem hMass_apply (y : FVec Ideal ⟨2, ![a, n]⟩ .f32) (i : Fin a) :
    hMass hb2 hb1 hb0 hr hu y (ix2 i (0 : Fin 1)) = mass (fun k => y (ix2 i k)) := by
  unfold hMass mass wt
  refine (broadcastInDim_a_a1_apply ![0] hb1 rfl _ i 0).trans ?_
  refine (hostReduceAdd_rows_apply _ _ hr ⟨hr.1, Nat.one_pos, hr.2⟩ hu i).trans ?_
  show Ideal.ofBits .f32 0x00000000#32 + _ = _
  rw [Ideal.ofBits_zero_f32, zero_add]
  refine Finset.sum_congr rfl fun k _ => ?_
  show Ideal.exp (hShift hb2 hb1 hb0 hr hu y (ix2 i k)) = _
  rw [hShift_apply]

theorem hSoft_apply (y : FVec Ideal ⟨2, ![a, n]⟩ .f32) (i : Fin a) (j : Fin n) :
    hSoft hb2 hb1 hb0 hr hu y (ix2 i j) = Ideal.div (wt (fun k => y (ix2 i k)) j) (mass (fun k => y (ix2 i k))) := by
  unfold hSoft
  show Ideal.div (Ideal.exp (hShift hb2 hb1 hb0 hr hu y (ix2 i j)))
    (broadcastInDim ⟨2, ![a, n]⟩ ![0, 1] hb2 (hMass hb2 hb1 hb0 hr hu y) (ix2 i j)) = _
  rw [broadcastInDim_a1_ab_apply ![0, 1] hb2 rfl, hMass_apply, hShift_apply]
  rfl

theorem hLog_apply (y : FVec Ideal ⟨2, ![a, n]⟩ .f32) (i : Fin a) (j : Fin n) :
    hLog hb2 hb1 hb0 hr hu y (ix2 i j) = logp (fun k => y (ix2 i k)) j := by
  unfold hLog
  show hShift hb2 hb1 hb0 hr hu y (ix2 i j)
    - broadcastInDim ⟨2, ![a, n]⟩ ![0, 1] hb2 (Host.log (hMass hb2 hb1 hb0 hr hu y)) (ix2 i j) = _
  rw [broadcastInDim_a1_ab_apply ![0, 1] hb2 rfl]
  show hShift hb2 hb1 hb0 hr hu y (ix2 i j) - Ideal.log (hMass hb2 hb1 hb0 hr hu y (ix2 i (0 : Fin 1))) = _
  rw [hMass_apply, hShift_apply]
  rfl

/-- The mean over the rows of the KL terms of the rows of `y` against those of `z`, each weight divided by its row's
    mass inside the sum. -/
theorem hMeanOf_apply (cnt : BitVec 32) (y z : FVec Ideal ⟨2, ![a, n]⟩ .f32) (j : (⟨0, ![]⟩ : Shape).Idx) :
    hMeanOf hr hr0 hu cnt (hSoft hb2 hb1 hb0 hr hu y) (hLog hb2 hb1 hb0 hr hu y) (hLog hb2 hb1 hb0 hr hu z) j
      = Ideal.div (0 + ∑ i : Fin a, (0 + klIn (fun k => y (ix2 i k)) (fun k => z (ix2 i k)))) (Ideal.ofBits .f32 cnt) := by
  unfold hMeanOf
  show Ideal.div (Host.reduceAdd (F := Ideal) _ _ hr0 hu j) (Ideal.ofBits .f32 cnt) = _
  refine congrArg (Ideal.div · _) ?_
  refine (hostReduceAdd_vec_total _ _ hr0 hu j).trans ?_
  show Ideal.ofBits .f32 0x00000000#32 + _ = _
  rw [Ideal.ofBits_zero_f32]
  refine congrArg (0 + ·) (Finset.sum_congr rfl fun i _ => ?_)
  refine (hostReduceAdd_rows_apply _ _ hr ⟨hr.1, Nat.one_pos, hr.2⟩ hu i).trans ?_
  show Ideal.ofBits .f32 0x00000000#32 + _ = _
  rw [Ideal.ofBits_zero_f32]
  refine congrArg (0 + ·) ?_
  unfold klIn
  refine Finset.sum_congr rfl fun k _ => ?_
  show hSoft hb2 hb1 hb0 hr hu y (ix2 i k) * (hLog hb2 hb1 hb0 hr hu y (ix2 i k) - hLog hb2 hb1 hb0 hr hu z (ix2 i k)) = _
  rw [hSoft_apply, hLog_apply, hLog_apply]

end Cert.LibHostSoftmaxRows

end
-- ==== Proof.RefValue.lean ====
/-
  The reference's stages read by coordinates, on the extended reals.

  Row `i` of an array `x : [4096, n]` is `fun k => x (i, k)`. A unit row is the row divided entry by entry by its
  clamped length; the cosine matrix at `(i, j)` is the inner product of unit rows `i` and `j` (`simIn`); an entry of
  the shifted matrix, the softmax and the log-softmax are `shifted`, a weight over the mass, and `logp` of the entry's
  row; the mean over the rows of the KL terms has each weight divided by the mass inside the sum (`klIn`); and the
  reference's result is `lossIn` of the two argument arrays.
-/
import proofs.«122327_j31353261261534_2_alg».proof.Proof.RefStages
import proofs.«122327_j31353261261534_2_alg».proof.Proof.RowKL
import proofs.«122327_j31353261261534_2_alg».proof.Proof.Consts
import proofs.«122327_j31353261261534_2_alg».proof.Proof.LibHostKeepdims
import proofs.«122327_j31353261261534_2_alg».proof.Proof.LibHostRows
import proofs.«122327_j31353261261534_2_alg».proof.Proof.LibHostSoftmaxRows

noncomputable section

open scoped BigOperators

namespace Cert.RefValue

open Idealize.ShloMosaic Idealize.ShloMosaic.ValueIdx Cert.ReferenceIdeal Cert.ReferenceIdeal.Gen Cert.RefRun Cert.RowKL
open Cert.LibHostRows Cert.LibHostSoftmaxRows

/-- A unit row's entry: the entry over the row's clamped length. -/
theorem unitRows_apply (x : FVec Ideal S4096x1024 .f32) (i : Fin 4096) (d : Fin 1024) :
    unitRows x (ix2 i d)
      = Ideal.div (x (ix2 i d)) (len (Ideal.ofBits .f32 0x322BCC77#32) (fun d => x (ix2 i d))) := by
  unfold unitRows len
  show Ideal.div (x (ix2 i d)) _ = _
  refine congrArg (Ideal.div (x (ix2 i d))) ?_
  rw [broadcastInDim_a1_ab_apply ![0, 1] bcast_S4096x1_S4096x1024_0_1 rfl]
  show max _ _ = _
  refine congrArg₂ max ?_ ?_
  · show Ideal.sqrt _ = _
    refine congrArg Ideal.sqrt ?_
    rw [broadcastInDim_a_a1_apply ![0] bcast_S4096_S4096x1_0 rfl,
      hostReduceAdd_rows_apply _ _ reducesTo_S4096x1024_S4096_d1
        ⟨reducesTo_S4096x1024_S4096_d1.1, Nat.one_pos, reducesTo_S4096x1024_S4096_d1.2⟩ h_S_]
    show Ideal.ofBits .f32 0x00000000#32 + _ = _
    rw [Ideal.ofBits_zero_f32]
    rfl
  · exact broadcastInDim_scalar_apply ![] bcast_S_S4096x1 _ _

/-- The cosine matrix at `(i, j)`: the inner product of unit rows `i` and `j`. -/
theorem cosine_apply (x : FVec Ideal S4096x1024 .f32) (i j : Fin 4096) :
    cosine x (ix2 i j) = simIn (Ideal.ofBits .f32 0x322BCC77#32) (fun i d => x (ix2 i d)) i j := by
  unfold cosine simIn
  rw [hostDot_nt_apply dot_S4096x1024_S4096x1024_S4096x4096_1_1_0_0_n_n rfl rfl rfl rfl rfl rfl]
  refine Finset.sum_congr rfl fun d _ => ?_
  rw [unitRows_apply, unitRows_apply]

/-! ## The means over the rows

  The reference's softmax, log-softmax and mean stages are the general row-wise ones at its own extents. -/

/-- The mean over rows of 4096 entries. -/
theorem meanW_apply (a b : FVec Ideal S4096x4096 .f32) :
    meanW a b ix0 = Ideal.div (0 + ∑ i : Fin 4096, (0 + klIn (fun k => a (ix2 i k)) (fun k => b (ix2 i k))))
      (Ideal.ofBits .f32 0x45800000#32) :=
  hMeanOf_apply bcast_S4096x1_S4096x4096_0_1 bcast_S4096_S4096x1_0 bcast_S_S4096 reducesTo_S4096x4096_S4096_d1 reducesTo_S4096_S_d0 h_S_ 0x45800000#32 a b ix0

/-- The mean over rows of 1024 entries. -/
theorem meanN_apply (a b : FVec Ideal S4096x1024 .f32) :
    meanN a b ix0 = Ideal.div (0 + ∑ i : Fin 4096, (0 + klIn (fun k => a (ix2 i k)) (fun k => b (ix2 i k))))
      (Ideal.ofBits .f32 0x45800000#32) :=
  hMeanOf_apply bcast_S4096x1_S4096x1024_0_1 bcast_S4096_S4096x1_0 bcast_S_S4096 reducesTo_S4096x1024_S4096_d1 reducesTo_S4096_S_d0 h_S_ 0x45800000#32 a b ix0

/-! ## The result -/

/-- The reference's result is the loss in the arrangement that divides inside the sums. -/
theorem result_apply (t p : FVec Ideal S4096x1024 .f32) :
    result t p ix0 = lossIn (Ideal.ofBits .f32 0x322BCC77#32) (Ideal.ofBits .f32 0x45800000#32)
      (fun i d => t (ix2 i d)) (fun i d => p (ix2 i d)) := by
  have e1 : ∀ i : Fin 4096, (fun k => cosine t (ix2 i k)) = simIn (Ideal.ofBits .f32 0x322BCC77#32) (fun i d => t (ix2 i d)) i :=
    fun i => funext fun k => cosine_apply t i k
  have e2 : ∀ i : Fin 4096, (fun k => cosine p (ix2 i k)) = simIn (Ideal.ofBits .f32 0x322BCC77#32) (fun i d => p (ix2 i d)) i :=
    fun i => funext fun k => cosine_apply p i k
  unfold result lossIn
  show meanW (cosine t) (cosine p) ix0 + meanN t p ix0 = _
  rw [meanW_apply, meanN_apply]
  refine congrArg₂ (· + ·) (congrArg (Ideal.div · _) (congrArg (0 + ·) (Finset.sum_congr rfl fun i _ =>
    congrArg (0 + ·) (congrArg₂ klIn (e1 i) (e2 i))))) rfl

end Cert.RefValue

end
-- ==== Proof.Finite.lean ====
/-
  From the precondition to real entries.

  The precondition says, of each argument array, that the conjunction over all its entries of `|x| < +inf` is true. A
  conjunction over all entries that is true is true at every entry; and an extended real whose absolute value
  `max x (-x)` is below the greatest element is neither infinity, hence a real number.
-/
import proofs.«122327_j31353261261534_2_alg».proof.Pre_finite_inputs
import Idealize.ShloMosaic.PureOps.Ideal.Laws
import Idealize.ShloMosaic.Lib.ValueIdx
import Idealize.ShloMosaic.Lib.ReduceAll
import proofs.«122327_j31353261261534_2_alg».proof.Proof.Consts

noncomputable section

namespace Cert.Finite

open Idealize.ShloMosaic Cert.Pre_finite_inputs

/-- An extended real whose absolute value is below the greatest element is a real. -/
theorem real_of_abs_lt (x : EReal) (h : Ideal.cmp .olt (max x (-x)) ⊤ = 1#1) : ∃ r : ℝ, x = (r : EReal) := by
  induction x using EReal.rec with
  | bot =>
    exfalso
    have e : Ideal.cmp .olt (max (⊥ : EReal) (-⊥)) ⊤ = 0#1 := by simp [Ideal.cmp]
    rw [e] at h
    exact absurd h (by decide)
  | coe r => exact ⟨r, rfl⟩
  | top =>
    exfalso
    have e : Ideal.cmp .olt (max (⊤ : EReal) (-⊤)) ⊤ = 0#1 := by simp [Ideal.cmp]
    rw [e] at h
    exact absurd h (by decide)

instance : Subsingleton S_.Idx := ⟨fun a b => funext fun d => d.elim0⟩

variable [Facts]

/-- Under the precondition every entry of both arrays is a real number. -/
theorem real_of_pre (a0 a1 : FVec Ideal S4096x1024 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h3, h7⟩ := IntOp.andi_eq_one.mp h0
  refine ⟨fun i => ?_, fun i => ?_⟩
  · have e := Host.reduce_andi_all _ _ _ _ _ h3 i
    have e' : Ideal.cmp .olt (max (a0 i) (-(a0 i))) (Ideal.ofBits .f32 0x7F800000#32) = 1#1 := e
    rw [Cert.Consts.ofBits_inf] at e'
    exact real_of_abs_lt _ e'
  · have e := Host.reduce_andi_all _ _ _ _ _ h7 i
    have e' : Ideal.cmp .olt (max (a1 i) (-(a1 i))) (Ideal.ofBits .f32 0x7F800000#32) = 1#1 := e
    rw [Cert.Consts.ofBits_inf] at e'
    exact real_of_abs_lt _ e'

end Cert.Finite

end
-- ==== Proof.lean ====
/-
  The kernel computes, for two arrays `T` (target) and `P` (predicted) of 4096 rows of 1024 entries, the mean over the
  rows of two Kullback–Leibler terms: one between the row-softmaxes of the two matrices of cosine similarities of the
  rows (of `T` with `T`, of `P` with `P`), one between the row-softmaxes of `T` and `P` themselves. The reference
  computes the mean of the first terms plus the mean of the second.

  On the extended reals the two programs arrange the same quantities differently. The kernel scales an inner product
  of two rows by the reciprocals of their clamped lengths, where the reference divides every entry by its row's length
  first; the kernel divides a row's weighted sum by the row's mass once, where the reference divides every weight; and
  the kernel takes the mean of the sums where the reference sums the means. Each pair agrees on REAL arrays
  (Proof/RowKL.lean: a product distributes over a finite sum of reals, a mass is a sum of positive reals, a clamped
  length is at least the positive clamp), and the precondition says the arrays are real (Proof/Finite.lean).

  The kernel program's run and its output array, block by block, are in Proof/KernelBlock.lean, KernelGlue.lean,
  KernelArray.lean and KernelRun.lean; the reference's run and its stages in Proof/RefStages.lean, RefRun.lean and
  RefValue.lean. The word-level kernel needs only its frame; the idealization rewrote nothing.
-/
import proofs.«122327_j31353261261534_2_alg».proof.Defs
import proofs.«122327_j31353261261534_2_alg».proof.Proof.Gen.Kernel
import proofs.«122327_j31353261261534_2_alg».proof.Proof.Gen.Kernel.Frame
import proofs.«122327_j31353261261534_2_alg».proof.Proof.Gen.KernelIdeal
import proofs.«122327_j31353261261534_2_alg».proof.Proof.Gen.KernelIdeal.Frame
import proofs.«122327_j31353261261534_2_alg».proof.Proof.Gen.ReferenceIdeal
import proofs.«122327_j31353261261534_2_alg».proof.Proof.Gen.Pre_finite_inputs
import proofs.«122327_j31353261261534_2_alg».proof.Proof.KernelRun
import proofs.«122327_j31353261261534_2_alg».proof.Proof.RefRun
import proofs.«122327_j31353261261534_2_alg».proof.Proof.RefValue
import proofs.«122327_j31353261261534_2_alg».proof.Proof.RowKL
import proofs.«122327_j31353261261534_2_alg».proof.Proof.Finite
import proofs.«122327_j31353261261534_2_alg».proof.Proof.Consts
import Idealize.ShloMosaic.Adequacy
import Idealize.ShloMosaic.Init

noncomputable section

namespace Cert.Proof

open Idealize.ShloMosaic Idealize.ShloMosaic.TcCoe Idealize.SL.Sem Idealize.ShloMosaic.ValueIdx
open Cert.RowKL Cert.KernelIdeal.Arr

/-- Under the precondition the kernel's arrangement of the loss and the reference's are one extended real: the
    arrays' entries are real numbers, the clamp is a positive real, the row count a nonzero one. -/
theorem bridge (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    lossOut (Ideal.ofBits .f32 0x322BCC77#32) (Ideal.ofBits .f32 0x3F800000#32) (Ideal.ofBits .f32 0x45800000#32) (Tm m c) (Pm m c) = lossIn (Ideal.ofBits .f32 0x322BCC77#32) (Ideal.ofBits .f32 0x45800000#32) (Tm m c) (Pm m c) := by
  obtain ⟨hT, hP⟩ := Cert.Finite.real_of_pre _ _ hpre
  choose T hT using hT
  choose P hP using hP
  have eT : Tm m c = fun i d => ((T (ix2 i d) : ℝ) : EReal) := funext fun i => funext fun d => hT _
  have eP : Pm m c = fun i d => ((P (ix2 i d) : ℝ) : EReal) := funext fun i => funext fun d => hP _
  rw [eT, eP, Cert.Consts.ofBits_eps, Cert.Consts.ofBits_one, Cert.Consts.ofBits_4096]
  exact loss_eq (n := 4096) (K := 1024) (by norm_num) (by norm_num) (fun i d => T (ix2 i d)) (fun i d => P (ix2 i d))
    Cert.Consts.eps_pos (by norm_num)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- Both idealized programs end at the loss of the argument arrays: the kernel at its arrangement (the kernel's run),
    the reference at its own (the reference's run read stage by stage), and the two arrangements agree under the
    precondition. -/
theorem algebraic : Cert.algebraic_KernelIdeal_ReferenceIdeal := by
  intro m ρ m' ρ' hpre hagree
  refine ⟨fun c => (fun _ => lossOut (Ideal.ofBits .f32 0x322BCC77#32) (Ideal.ofBits .f32 0x3F800000#32) (Ideal.ofBits .f32 0x45800000#32) (Tm m c) (Pm m c)), Cert.KernelIdeal.Tail.run m ρ, ?_⟩
  refine (θ_run Cert.ReferenceIdeal.defs _ _).mono (fun _ h c => ⟨(h c).1.trans ?_, (h c).2⟩)
    (Cert.RefRun.run (F := Ideal) m' ρ')
  rw [(hagree c).1, (hagree c).2]
  funext j
  obtain rfl : j = ix0 := eq_ix0 j
  rw [Cert.RefValue.result_apply]
  exact (bridge m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
